-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S8x1 .f32) (main_v50 : FVec F S8x1 .f32) : IVec S_ 1 :=
  let main_v51 : IVec S8x1 1 := cmpf .olt main_v49 main_v50
  let main_c_19 : IVec S_ 1 := constantI S_ 1 1#1
  let main_v52 : IVec S_ 1 := (fun x v => Host.reduce IntOp.andi x v reducesTo_S8x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S16 .f32) (main_arg10 : FVec F S16x8 .f32) (main_arg11 : FVec F S8 .f32) (main_arg12 : FVec F S8x1 .f32) (main_arg13 : FVec F S1 .f32) (main_v33 : IVec S_ 1) : IVec S_ 1 :=
  let main_v34 : FVec F S16 .f32 := Host.absf main_arg9
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16x8 .f32 := Host.absf main_arg10
  let main_cst_14 : FVec F S_ .f32 := constant S_ .f32 0x7F800000#32
  let main_v40 : FVec F S16x8 .f32 := broadcastInDim S16x8 ![] bcast_S_S16x8 main_cst_14
  let main_v41 : IVec S16x8 1 := cmpf .olt main_v39 main_v40
  let main_c_15 : IVec S_ 1 := constantI S_ 1 1#1
  let main_v42 : IVec S_ 1 := (fun x v => Host.reduce IntOp.andi x v reducesTo_S16x8_S_d0_1 h_S_) main_v41 main_c_15
  let main_v43 : IVec S_ 1 := andi main_v38 main_v42
  let main_v44 : FVec F S8 .f32 := Host.absf main_arg11
  let main_cst_16 : FVec F S_ .f32 := constant S_ .f32 0x7F800000#32
  let main_v45 : FVec F S8 .f32 := broadcastInDim S8 ![] bcast_S_S8 main_cst_16
  let main_v46 : IVec S8 1 := cmpf .olt main_v44 main_v45
  let main_c_17 : IVec S_ 1 := constantI S_ 1 1#1
  let main_v47 : IVec S_ 1 := (fun x v => Host.reduce IntOp.andi x v reducesTo_S8_S_d0 h_S_) main_v46 main_c_17
  let main_v48 : IVec S_ 1 := andi main_v43 main_v47
  let main_v49 : FVec F S8x1 .f32 := Host.absf main_arg12
  let main_cst_18 : FVec F S_ .f32 := constant S_ .f32 0x7F800000#32
  let main_v50 : FVec F S8x1 .f32 := broadcastInDim S8x1 ![] bcast_S_S8x1 main_cst_18
  fn_part3 (F := F) main_arg13 main_v48 main_v49 main_v50

def fn_part1 {F : FTy → Type} [FloatOps F] (main_arg6 : FVec F S64x32 .f32) (main_arg7 : FVec F S32 .f32) (main_arg8 : FVec F S32x16 .f32) (main_arg9 : FVec F S16 .f32) (main_arg10 : FVec F S16x8 .f32) (main_arg11 : FVec F S8 .f32) (main_arg12 : FVec F S8x1 .f32) (main_arg13 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64x32 .f32 := Host.absf main_arg6
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x16 .f32 := Host.absf main_arg8
  let main_cst_10 : FVec F S_ .f32 := constant S_ .f32 0x7F800000#32
  let main_v30 : FVec F S32x16 .f32 := broadcastInDim S32x16 ![] bcast_S_S32x16 main_cst_10
  let main_v31 : IVec S32x16 1 := cmpf .olt main_v29 main_v30
  let main_c_11 : IVec S_ 1 := constantI S_ 1 1#1
  let main_v32 : IVec S_ 1 := (fun x v => Host.reduce IntOp.andi x v reducesTo_S32x16_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x128 .f32) (main_arg1 : IVec S2x600000 32) (main_arg2 : IVec S50000 32) (main_arg3 : FVec F S128x64 .f32) (main_arg4 : FVec F S64 .f32) (main_arg5 : FVec F S128x64 .f32) (main_arg6 : FVec F S64x32 .f32) (main_arg7 : FVec F S32 .f32) (main_arg8 : FVec F S32x16 .f32) (main_arg9 : FVec F S16 .f32) (main_arg10 : FVec F S16x8 .f32) (main_arg11 : FVec F S8 .f32) (main_arg12 : FVec F S8x1 .f32) (main_arg13 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_arg11 main_arg12 main_arg13 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S1x600000 : Shape := ⟨2, ![1, 600000]⟩
abbrev S600000 : Shape := ⟨1, ![600000]⟩
abbrev S50000x64 : Shape := ⟨2, ![50000, 64]⟩
abbrev S5000x128 : Shape := ⟨2, ![5000, 128]⟩
abbrev S5000x64 : Shape := ⟨2, ![5000, 64]⟩
abbrev S_ : Shape := ⟨0, ![]⟩
abbrev S600000x1 : Shape := ⟨2, ![600000, 1]⟩
abbrev S600000x64 : Shape := ⟨2, ![600000, 64]⟩
abbrev S50000x1 : Shape := ⟨2, ![50000, 1]⟩
abbrev S1x64 : Shape := ⟨2, ![1, 64]⟩
abbrev S5000x1 : Shape := ⟨2, ![5000, 1]⟩
abbrev S500x64 : Shape := ⟨2, ![500, 64]⟩
abbrev S500 : Shape := ⟨1, ![500]⟩
abbrev S500x1 : Shape := ⟨2, ![500, 1]⟩
abbrev S1x32 : Shape := ⟨2, ![1, 32]⟩
abbrev S1x16 : Shape := ⟨2, ![1, 16]⟩
abbrev S1x8 : Shape := ⟨2, ![1, 8]⟩
abbrev S1x1 : Shape := ⟨2, ![1, 1]⟩
abbrev S500x32 : Shape := ⟨2, ![500, 32]⟩
abbrev S500x16 : Shape := ⟨2, ![500, 16]⟩
abbrev S500x8 : Shape := ⟨2, ![500, 8]⟩

abbrev nBuf : Space → Nat
  | .hbm => 58
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S50000, .i32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64x32, .f32⟩
  | .hbm, ⟨7, _⟩ => ⟨S32, .f32⟩
  | .hbm, ⟨8, _⟩ => ⟨S32x16, .f32⟩
  | .hbm, ⟨9, _⟩ => ⟨S16, .f32⟩
  | .hbm, ⟨10, _⟩ => ⟨S16x8, .f32⟩
  | .hbm, ⟨11, _⟩ => ⟨S8, .f32⟩
  | .hbm, ⟨12, _⟩ => ⟨S8x1, .f32⟩
  | .hbm, ⟨13, _⟩ => ⟨S1, .f32⟩
  | .hbm, ⟨14, _⟩ => ⟨S1x600000, .i32⟩
  | .hbm, ⟨15, _⟩ => ⟨S600000, .i32⟩
  | .hbm, ⟨16, _⟩ => ⟨S1x600000, .i32⟩
  | .hbm, ⟨17, _⟩ => ⟨S600000, .i32⟩
  | .hbm, ⟨18, _⟩ => ⟨S50000x64, .f32⟩
  | .hbm, ⟨19, _⟩ => ⟨S50000x64, .f32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x64, .f32⟩
  | .hbm, ⟨29, _⟩ => ⟨S_, .f32⟩
  | .hbm, ⟨30, _⟩ => ⟨S50000x64, .f32⟩
  | .hbm, ⟨31, _⟩ => ⟨S600000x1, .i32⟩
  | .hbm, ⟨32, _⟩ => ⟨S50000x64, .f32⟩
  | .hbm, ⟨33, _⟩ => ⟨S_, .f32⟩
  | .hbm, ⟨34, _⟩ => ⟨S600000, .f32⟩
  | .hbm, ⟨35, _⟩ => ⟨S_, .f32⟩
  | .hbm, ⟨36, _⟩ => ⟨S50000, .f32⟩
  | .hbm, ⟨37, _⟩ => ⟨S600000x1, .i32⟩
  | .hbm, ⟨38, _⟩ => ⟨S50000, .f32⟩
  | .hbm, ⟨39, _⟩ => ⟨S50000x1, .f32⟩
  | .hbm, ⟨40, _⟩ => ⟨S1x64, .f32⟩
  | .hbm, ⟨41, _⟩ => ⟨S50000x64, .f32⟩
  | .hbm, ⟨42, _⟩ => ⟨S_, .f32⟩
  | .hbm, ⟨43, _⟩ => ⟨S500x64, .f32⟩
  | .hbm, ⟨44, _⟩ => ⟨S50000x1, .i32⟩
  | .hbm, ⟨45, _⟩ => ⟨S500x64, .f32⟩
  | .hbm, ⟨46, _⟩ => ⟨S_, .f32⟩
  | .hbm, ⟨47, _⟩ => ⟨S50000, .f32⟩
  | .hbm, ⟨48, _⟩ => ⟨S_, .f32⟩
  | .hbm, ⟨49, _⟩ => ⟨S500, .f32⟩
  | .hbm, ⟨50, _⟩ => ⟨S50000x1, .i32⟩
  | .hbm, ⟨51, _⟩ => ⟨S500, .f32⟩
  | .hbm, ⟨52, _⟩ => ⟨S500x1, .f32⟩
  | .hbm, ⟨53, _⟩ => ⟨S1x32, .f32⟩
  | .hbm, ⟨54, _⟩ => ⟨S1x16, .f32⟩
  | .hbm, ⟨55, _⟩ => ⟨S1x8, .f32⟩
  | .hbm, ⟨56, _⟩ => ⟨S1x1, .f32⟩
  | .hbm, ⟨57, _⟩ => ⟨S500x1, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S128x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x1, .f32⟩
  | .local _ .vmem, ⟨13, _⟩ => ⟨S5000x1, .f32⟩
  | .local _ .vmem, ⟨14, _⟩ => ⟨S1x64, .f32⟩
  | .local _ .vmem, ⟨15, _⟩ => ⟨S5000x64, .f32⟩
  | .local _ .vmem, ⟨16, _⟩ => ⟨S5000x64, .f32⟩
  | .local _ .vmem, ⟨17, _⟩ => ⟨S500x64, .f32⟩
  | .local _ .vmem, ⟨18, _⟩ => ⟨S500x1, .f32⟩
  | .local _ .vmem, ⟨19, _⟩ => ⟨S64x32, .f32⟩
  | .local _ .vmem, ⟨20, _⟩ => ⟨S1x32, .f32⟩
  | .local _ .vmem, ⟨21, _⟩ => ⟨S32x16, .f32⟩
  | .local _ .vmem, ⟨22, _⟩ => ⟨S1x16, .f32⟩
  | .local _ .vmem, ⟨23, _⟩ => ⟨S16x8, .f32⟩
  | .local _ .vmem, ⟨24, _⟩ => ⟨S1x8, .f32⟩
  | .local _ .vmem, ⟨25, _⟩ => ⟨S8x1, .f32⟩
  | .local _ .vmem, ⟨26, _⟩ => ⟨S1x1, .f32⟩
  | .local _ .vmem, ⟨27, _⟩ => ⟨S500x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4_0 : Ref sig .tc := ⟨.hbm, 18, rfl⟩
abbrev main_v4_1 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_cst_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_cst_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg9_0 : Ref sig .tc := ⟨.vmem, 26, rfl⟩
abbrev cc2_stg10_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem4_1 : DmaSem sig := 16
abbrev cc2_sem0_0 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem8_0 : DmaSem sig := 25
abbrev cc2_sem9_0 : DmaSem sig := 26
abbrev cc2_sem10_0 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S500x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S500x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S16x8 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x8 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S8x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S500x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S600000 : S_.BroadcastsInDim S600000 (![] : Fin 0 → Fin S600000.rank)
  bcast_S600000_S600000x1_0 : S600000.BroadcastsInDim S600000x1 (![0] : Fin 1 → Fin S600000x1.rank)
  bcast_S_S50000x64 : S_.BroadcastsInDim S50000x64 (![] : Fin 0 → Fin S50000x64.rank)
  bcast_S_S50000 : S_.BroadcastsInDim S50000 (![] : Fin 0 → Fin S50000.rank)
  shapeCasts_S50000_S50000x1 : S50000.ShapeCasts S50000x1
  shapeCasts_S64_S1x64 : S64.ShapeCasts S1x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S500x64 : S_.BroadcastsInDim S500x64 (![] : Fin 0 → Fin S500x64.rank)
  bcast_S50000_S50000x1_0 : S50000.BroadcastsInDim S50000x1 (![0] : Fin 1 → Fin S50000x1.rank)
  bcast_S_S500 : S_.BroadcastsInDim S500 (![] : Fin 0 → Fin S500.rank)
  shapeCasts_S500_S500x1 : S500.ShapeCasts S500x1
  shapeCasts_S32_S1x32 : S32.ShapeCasts S1x32
  shapeCasts_S16_S1x16 : S16.ShapeCasts S1x16
  shapeCasts_S8_S1x8 : S8.ShapeCasts S1x8
  shapeCasts_S1_S1x1 : S1.ShapeCasts S1x1
  inb_S500x1_S500x1_0_0 : ∀ a, (![0, 0] : Fin 2 → Nat) a + S500x1.size a ≤ S500x1.size a
  h_S500x1 : 0 < S500x1.numel
  shapeCasts_S500x1_S500x1 : S500x1.ShapeCasts S500x1
  inb_S500x64_S500x64_0_0 : ∀ a, (![0, 0] : Fin 2 → Nat) a + S500x64.size a ≤ S500x64.size a
  h_S500x64 : 0 < S500x64.numel
  shapeCasts_S500x64_S500x64 : S500x64.ShapeCasts S500x64
  broadcasts_S500x1_S500x64 : S500x1.Broadcasts S500x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S500x32 : S1x32.Broadcasts S500x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S500x16 : S1x16.Broadcasts S500x16
  inb_S16x8_S16x8_0_0 : ∀ a, (![0, 0] : Fin 2 → Nat) a + S16x8.size a ≤ S16x8.size a
  h_S16x8 : 0 < S16x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S500x8 : S1x8.Broadcasts S500x8
  inb_S8x1_S8x1_0_0 : ∀ a, (![0, 0] : Fin 2 → Nat) a + S8x1.size a ≤ S8x1.size a
  h_S8x1 : 0 < S8x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S500x1 : S1x1.Broadcasts S500x1
  dot_S5000x128_S128x64_S5000x64_1_0_0_1_n_n_wf : DotDims.WF S5000x128 S128x64 S5000x64 [1] [0] [0] [1] [] []
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1
  scatter_S50000_S600000x1_S600000_n_0_0_1_wf : ScatterDims.WF S50000 S600000x1 S600000 [] [0] [0] 1
  scatter_S500x64_S50000x1_S50000x64_1_0_0_1_wf : ScatterDims.WF S500x64 S50000x1 S50000x64 [1] [0] [0] 1
  scatter_S500_S50000x1_S50000_n_0_0_1_wf : ScatterDims.WF S500 S50000x1 S50000 [] [0] [0] 1
  dot_S500x64_S64x32_S500x32_1_0_0_1_n_n_wf : DotDims.WF S500x64 S64x32 S500x32 [1] [0] [0] [1] [] []
  dot_S500x32_S32x16_S500x16_1_0_0_1_n_n_wf : DotDims.WF S500x32 S32x16 S500x16 [1] [0] [0] [1] [] []
  dot_S500x16_S16x8_S500x8_1_0_0_1_n_n_wf : DotDims.WF S500x16 S16x8 S500x8 [1] [0] [0] [1] [] []
  dot_S500x8_S8x1_S500x1_1_0_0_1_n_n_wf : DotDims.WF S500x8 S8x1 S500x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .f32 = 32 ∨ (Rect.block (s := S50000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S500x64.size a ≤ S500x64.size a
  hwx2_0 : ∀ i : grid2.Coords, EltTy.bits .f32 = 32 ∨ (Rect.block (s := S500x64) S500x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S500x1.size a ≤ S500x1.size a
  hwx2_1 : ∀ i : grid2.Coords, EltTy.bits .f32 = 32 ∨ (Rect.block (s := S500x1) S500x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x32.size a ≤ S64x32.size a
  hwx2_2 : ∀ i : grid2.Coords, EltTy.bits .f32 = 32 ∨ (Rect.block (s := S64x32) S64x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x16.size a ≤ S32x16.size a
  hwx2_4 : ∀ i : grid2.Coords, EltTy.bits .f32 = 32 ∨ (Rect.block (s := S32x16) S32x16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x16.size a ≤ S1x16.size a
  hwx2_5 : ∀ i : grid2.Coords, EltTy.bits .f32 = 32 ∨ (Rect.block (s := S1x16) S1x16.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S16x8.size a ≤ S16x8.size a
  hwx2_6 : ∀ i : grid2.Coords, EltTy.bits .f32 = 32 ∨ (Rect.block (s := S16x8) S16x8.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x8.size a ≤ S1x8.size a
  hwx2_7 : ∀ i : grid2.Coords, EltTy.bits .f32 = 32 ∨ (Rect.block (s := S1x8) S1x8.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S8x1.size a ≤ S8x1.size a
  hwx2_8 : ∀ i : grid2.Coords, EltTy.bits .f32 = 32 ∨ (Rect.block (s := S8x1) S8x1.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x1.size a ≤ S1x1.size a
  hwx2_9 : ∀ i : grid2.Coords, EltTy.bits .f32 = 32 ∨ (Rect.block (s := S1x1) S1x1.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S500x1.size a ≤ S500x1.size a
  hwx2_10 : ∀ i : grid2.Coords, EltTy.bits .f32 = 32 ∨ (Rect.block (s := S500x1) S500x1.size (cc2_transform_10 i) (hinb2_10 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def scatter_S500x64_S50000x1_S50000x64_1_0_0_1 : ScatterDims S500x64 S50000x1 S50000x64 where
  updateWindowDims := [1]
  insertedWindowDims := [0]
  scatterDimsToOperandDims := [0]
  indexVectorDim := 1
  wf := scatter_S500x64_S50000x1_S50000x64_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def dot_S500x64_S64x32_S500x32_1_0_0_1_n_n : DotDims S500x64 S64x32 S500x32 where
  lhsContracting := [1]
  rhsContracting := [0]
  lhsNonContracting := [0]
  rhsNonContracting := [1]
  lhsBatch := []
  rhsBatch := []
  wf := dot_S500x64_S64x32_S500x32_1_0_0_1_n_n_wf
def dot_S500x32_S32x16_S500x16_1_0_0_1_n_n : DotDims S500x32 S32x16 S500x16 where
  lhsContracting := [1]
  rhsContracting := [0]
  lhsNonContracting := [0]
  rhsNonContracting := [1]
  lhsBatch := []
  rhsBatch := []
  wf := dot_S500x32_S32x16_S500x16_1_0_0_1_n_n_wf
def dot_S500x16_S16x8_S500x8_1_0_0_1_n_n : DotDims S500x16 S16x8 S500x8 where
  lhsContracting := [1]
  rhsContracting := [0]
  lhsNonContracting := [0]
  rhsNonContracting := [1]
  lhsBatch := []
  rhsBatch := []
  wf := dot_S500x16_S16x8_S500x8_1_0_0_1_n_n_wf
def dot_S500x8_S8x1_S500x1_1_0_0_1_n_n : DotDims S500x8 S8x1 S500x1 where
  lhsContracting := [1]
  rhsContracting := [0]
  lhsNonContracting := [0]
  rhsNonContracting := [1]
  lhsBatch := []
  rhsBatch := []
  wf := dot_S500x8_S8x1_S500x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S5000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v14) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v24) S500x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v29) S500x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S32x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v31) S1x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg10) S16x8.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v32) S1x8.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg12) S8x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v33) S1x1.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v34) S500x1.size cc2_transform_10 reads2_10 true true 1 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S50000x64 : Shape := ⟨2, ![50000, 64]⟩
abbrev S1x64 : Shape := ⟨2, ![1, 64]⟩
abbrev S500x64 : Shape := ⟨2, ![500, 64]⟩
abbrev S500 : Shape := ⟨1, ![500]⟩
abbrev S500x1 : Shape := ⟨2, ![500, 1]⟩
abbrev S500x32 : Shape := ⟨2, ![500, 32]⟩
abbrev S1x32 : Shape := ⟨2, ![1, 32]⟩
abbrev S500x16 : Shape := ⟨2, ![500, 16]⟩
abbrev S1x16 : Shape := ⟨2, ![1, 16]⟩
abbrev S500x8 : Shape := ⟨2, ![500, 8]⟩
abbrev S1x8 : Shape := ⟨2, ![1, 8]⟩
abbrev S1x1 : Shape := ⟨2, ![1, 1]⟩

abbrev nBuf : Space → Nat
  | .hbm => 90
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S50000, .i32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64x32, .f32⟩
  | .hbm, ⟨7, _⟩ => ⟨S32, .f32⟩
  | .hbm, ⟨8, _⟩ => ⟨S32x16, .f32⟩
  | .hbm, ⟨9, _⟩ => ⟨S16, .f32⟩
  | .hbm, ⟨10, _⟩ => ⟨S16x8, .f32⟩
  | .hbm, ⟨11, _⟩ => ⟨S8, .f32⟩
  | .hbm, ⟨12, _⟩ => ⟨S8x1, .f32⟩
  | .hbm, ⟨13, _⟩ => ⟨S1, .f32⟩
  | .hbm, ⟨14, _⟩ => ⟨S1x600000, .i32⟩
  | .hbm, ⟨15, _⟩ => ⟨S600000, .i32⟩
  | .hbm, ⟨16, _⟩ => ⟨S1x600000, .i32⟩
  | .hbm, ⟨17, _⟩ => ⟨S600000, .i32⟩
  | .hbm, ⟨18, _⟩ => ⟨S_, .i32⟩
  | .hbm, ⟨19, _⟩ => ⟨S600000, .i32⟩
  | .hbm, ⟨20, _⟩ => ⟨S600000, .i1⟩
  | .hbm, ⟨21, _⟩ => ⟨S_, .i32⟩
  | .hbm, ⟨22, _⟩ => ⟨S600000, .i32⟩
  | .hbm, ⟨23, _⟩ => ⟨S600000, .i32⟩
  | .hbm, ⟨24, _⟩ => ⟨S600000, .i32⟩
  | .hbm, ⟨25, _⟩ => ⟨S600000x1, .i32⟩
  | .hbm, ⟨26, _⟩ => ⟨S600000x128, .f32⟩
  | .hbm, ⟨27, _⟩ => ⟨S_, .f32⟩
  | .hbm, ⟨28, _⟩ => ⟨S50000x128, .f32⟩
  | .hbm, ⟨29, _⟩ => ⟨S600000x1, .i32⟩
  | .hbm, ⟨30, _⟩ => ⟨S50000x128, .f32⟩
  | .hbm, ⟨31, _⟩ => ⟨S_, .f32⟩
  | .hbm, ⟨32, _⟩ => ⟨S600000, .f32⟩
  | .hbm, ⟨33, _⟩ => ⟨S_, .f32⟩
  | .hbm, ⟨34, _⟩ => ⟨S50000, .f32⟩
  | .hbm, ⟨35, _⟩ => ⟨S600000x1, .i32⟩
  | .hbm, ⟨36, _⟩ => ⟨S50000, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S50000x64, .f32⟩
  | .hbm, ⟨44, _⟩ => ⟨S1x64, .f32⟩
  | .hbm, ⟨45, _⟩ => ⟨S50000x64, .f32⟩
  | .hbm, ⟨46, _⟩ => ⟨S50000x64, .f32⟩
  | .hbm, ⟨47, _⟩ => ⟨S50000x64, .f32⟩
  | .hbm, ⟨48, _⟩ => ⟨S50000x64, .f32⟩
  | .hbm, ⟨49, _⟩ => ⟨S_, .f32⟩
  | .hbm, ⟨50, _⟩ => ⟨S500x64, .f32⟩
  | .hbm, ⟨51, _⟩ => ⟨S50000x1, .i32⟩
  | .hbm, ⟨52, _⟩ => ⟨S500x64, .f32⟩
  | .hbm, ⟨53, _⟩ => ⟨S_, .f32⟩
  | .hbm, ⟨54, _⟩ => ⟨S50000, .f32⟩
  | .hbm, ⟨55, _⟩ => ⟨S_, .f32⟩
  | .hbm, ⟨56, _⟩ => ⟨S500, .f32⟩
  | .hbm, ⟨57, _⟩ => ⟨S50000x1, .i32⟩
  | .hbm, ⟨58, _⟩ => ⟨S500, .f32⟩
  | .hbm, ⟨59, _⟩ => ⟨S_, .f32⟩
  | .hbm, ⟨60, _⟩ => ⟨S500, .f32⟩
  | .hbm, ⟨61, _⟩ => ⟨S500, .f32⟩
  | .hbm, ⟨62, _⟩ => ⟨S500x1, .f32⟩
  | .hbm, ⟨63, _⟩ => ⟨S500x64, .f32⟩
  | .hbm, ⟨64, _⟩ => ⟨S500x64, .f32⟩
  | .hbm, ⟨65, _⟩ => ⟨S500x32, .f32⟩
  | .hbm, ⟨66, _⟩ => ⟨S1x32, .f32⟩
  | .hbm, ⟨67, _⟩ => ⟨S500x32, .f32⟩
  | .hbm, ⟨68, _⟩ => ⟨S500x32, .f32⟩
  | .hbm, ⟨69, _⟩ => ⟨S_, .f32⟩
  | .hbm, ⟨70, _⟩ => ⟨S500x32, .f32⟩
  | .hbm, ⟨71, _⟩ => ⟨S500x32, .f32⟩
  | .hbm, ⟨72, _⟩ => ⟨S500x16, .f32⟩
  | .hbm, ⟨73, _⟩ => ⟨S1x16, .f32⟩
  | .hbm, ⟨74, _⟩ => ⟨S500x16, .f32⟩
  | .hbm, ⟨75, _⟩ => ⟨S500x16, .f32⟩
  | .hbm, ⟨76, _⟩ => ⟨S_, .f32⟩
  | .hbm, ⟨77, _⟩ => ⟨S500x16, .f32⟩
  | .hbm, ⟨78, _⟩ => ⟨S500x16, .f32⟩
  | .hbm, ⟨79, _⟩ => ⟨S500x8, .f32⟩
  | .hbm, ⟨80, _⟩ => ⟨S1x8, .f32⟩
  | .hbm, ⟨81, _⟩ => ⟨S500x8, .f32⟩
  | .hbm, ⟨82, _⟩ => ⟨S500x8, .f32⟩
  | .hbm, ⟨83, _⟩ => ⟨S_, .f32⟩
  | .hbm, ⟨84, _⟩ => ⟨S500x8, .f32⟩
  | .hbm, ⟨85, _⟩ => ⟨S500x8, .f32⟩
  | .hbm, ⟨86, _⟩ => ⟨S500x1, .f32⟩
  | .hbm, ⟨87, _⟩ => ⟨S1x1, .f32⟩
  | .hbm, ⟨88, _⟩ => ⟨S500x1, .f32⟩
  | .hbm, ⟨89, _⟩ => ⟨S500x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_call0_cst : Ref sig .tc := ⟨.hbm, 69, rfl⟩
abbrev main_call0_v0 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_call1_cst : Ref sig .tc := ⟨.hbm, 76, rfl⟩
abbrev main_call1_v0 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_call2_cst : Ref sig .tc := ⟨.hbm, 83, rfl⟩
abbrev main_call2_v0 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S500x64 : S_.BroadcastsInDim S500x64 (![] : Fin 0 → Fin S500x64.rank)
  bcast_S_S500 : S_.BroadcastsInDim S500 (![] : Fin 0 → Fin S500.rank)
  bcast_S500_S500x1_0 : S500.BroadcastsInDim S500x1 (![0] : Fin 1 → Fin S500x1.rank)
  bcast_S500x1_S500x64_0_1 : S500x1.BroadcastsInDim S500x64 (![0, 1] : Fin 2 → Fin S500x64.rank)
  bcast_S32_S1x32_1 : S32.BroadcastsInDim S1x32 (![1] : Fin 1 → Fin S1x32.rank)
  bcast_S1x32_S500x32_0_1 : S1x32.BroadcastsInDim S500x32 (![0, 1] : Fin 2 → Fin S500x32.rank)
  bcast_S_S500x32 : S_.BroadcastsInDim S500x32 (![] : Fin 0 → Fin S500x32.rank)
  bcast_S16_S1x16_1 : S16.BroadcastsInDim S1x16 (![1] : Fin 1 → Fin S1x16.rank)
  bcast_S1x16_S500x16_0_1 : S1x16.BroadcastsInDim S500x16 (![0, 1] : Fin 2 → Fin S500x16.rank)
  bcast_S_S500x16 : S_.BroadcastsInDim S500x16 (![] : Fin 0 → Fin S500x16.rank)
  bcast_S8_S1x8_1 : S8.BroadcastsInDim S1x8 (![1] : Fin 1 → Fin S1x8.rank)
  bcast_S1x8_S500x8_0_1 : S1x8.BroadcastsInDim S500x8 (![0, 1] : Fin 2 → Fin S500x8.rank)
  bcast_S_S500x8 : S_.BroadcastsInDim S500x8 (![] : Fin 0 → Fin S500x8.rank)
  bcast_S1_S1x1_1 : S1.BroadcastsInDim S1x1 (![1] : Fin 1 → Fin S1x1.rank)
  bcast_S1x1_S500x1_0_1 : S1x1.BroadcastsInDim S500x1 (![0, 1] : Fin 2 → Fin S500x1.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x64_S50000x64_1_0_0_1_n_n_wf : DotDims.WF S50000x128 S128x64 S50000x64 [1] [0] [0] [1] [] []
  scatter_S500x64_S50000x1_S50000x64_1_0_0_1_wf : ScatterDims.WF S500x64 S50000x1 S50000x64 [1] [0] [0] 1
  scatter_S500_S50000x1_S50000_n_0_0_1_wf : ScatterDims.WF S500 S50000x1 S50000 [] [0] [0] 1
  dot_S500x64_S64x32_S500x32_1_0_0_1_n_n_wf : DotDims.WF S500x64 S64x32 S500x32 [1] [0] [0] [1] [] []
  dot_S500x32_S32x16_S500x16_1_0_0_1_n_n_wf : DotDims.WF S500x32 S32x16 S500x16 [1] [0] [0] [1] [] []
  dot_S500x16_S16x8_S500x8_1_0_0_1_n_n_wf : DotDims.WF S500x16 S16x8 S500x8 [1] [0] [0] [1] [] []
  dot_S500x8_S8x1_S500x1_1_0_0_1_n_n_wf : DotDims.WF S500x8 S8x1 S500x1 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S500x64_S50000x1_S50000x64_1_0_0_1 : ScatterDims S500x64 S50000x1 S50000x64 where
  updateWindowDims := [1]
  insertedWindowDims := [0]
  scatterDimsToOperandDims := [0]
  indexVectorDim := 1
  wf := scatter_S500x64_S50000x1_S50000x64_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def dot_S500x64_S64x32_S500x32_1_0_0_1_n_n : DotDims S500x64 S64x32 S500x32 where
  lhsContracting := [1]
  rhsContracting := [0]
  lhsNonContracting := [0]
  rhsNonContracting := [1]
  lhsBatch := []
  rhsBatch := []
  wf := dot_S500x64_S64x32_S500x32_1_0_0_1_n_n_wf
def dot_S500x32_S32x16_S500x16_1_0_0_1_n_n : DotDims S500x32 S32x16 S500x16 where
  lhsContracting := [1]
  rhsContracting := [0]
  lhsNonContracting := [0]
  rhsNonContracting := [1]
  lhsBatch := []
  rhsBatch := []
  wf := dot_S500x32_S32x16_S500x16_1_0_0_1_n_n_wf
def dot_S500x16_S16x8_S500x8_1_0_0_1_n_n : DotDims S500x16 S16x8 S500x8 where
  lhsContracting := [1]
  rhsContracting := [0]
  lhsNonContracting := [0]
  rhsNonContracting := [1]
  lhsBatch := []
  rhsBatch := []
  wf := dot_S500x16_S16x8_S500x8_1_0_0_1_n_n_wf
def dot_S500x8_S8x1_S500x1_1_0_0_1_n_n : DotDims S500x8 S8x1 S500x1 where
  lhsContracting := [1]
  rhsContracting := [0]
  lhsNonContracting := [0]
  rhsNonContracting := [1]
  lhsBatch := []
  rhsBatch := []
  wf := dot_S500x8_S8x1_S500x1_1_0_0_1_n_n_wf

class Facts : Prop extends Facts₀ where

variable [Facts]
-- ==== Proof.KernelRun.lean ====
/-
  The idealized kernel's run with its result array named.

  The program is three kernel regions among stretches of host operations. Its frame run ends with every buffer that
  outlives a region at the contents the fold of the stretches and regions leaves; here the same run is posted with the
  result array read at that fold, so that the value of the result can be computed from it, beside the unchanged arguments.
-/
import proofs.«129108_j33028298506662_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates, nothing faulting, with the result array at the
    last boundary's contents and the argument arrays as launched. -/
theorem run_named : θ_run defs (onTc (τ := τ) (main (F := F))) ⟨m, fun _ => 0, ρ⟩ (fun r => ∀ c : Dev nD,
      r.2.mem ((c.tc : Thread nD τ).loc main_v34) = W6 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v34 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c)⟩)

end Cert.KernelIdeal.RunValue

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.LibHostDotIdx.lean ====
/-
  A host product of two matrices at exact arithmetic, read at an entry: the sum over the contracted axis of the
  products of the left factor's row entries with the right factor's column entries. Stated for any contraction
  record between two-axis shapes whose operand indices are "row of the result, contracted position" and
  "contracted position, column of the result" — the same reading the TensorCore product has, so that the two
  meet in one sum.
-/
import Idealize.ShloMosaic.Lib.ValueIdx
import Idealize.ShloMosaic.PureOps.Ideal.Laws

noncomputable section

namespace LibHostDotIdx

open Idealize.ShloMosaic Idealize.ShloMosaic.ValueIdx

/-- The host's `dot_general` of an M×K by a K×N matrix, at entry `j`: Σ_k l[j₀,k] · r[k,j₁]. -/
theorem hostDot2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) D prec l r j
      = ∑ k : Fin K, l (ix2 (n0 := M) (n1 := K) (j 0) k) * r (ix2 (n0 := K) (n1 := N) k (j 1)) := by
  simp only [Host.dotGeneral]
  rw [Ideal.dotGeneral_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibHostDotIdx

end
-- ==== Proof.LibRowOps.lean ====
/-
  A vector used as a row, read at an index.

  A vector of length b cast into the [1, b] row reads, at (z, q), the vector at q: (z, q) with z = 0 and q have the
  same row-major position. A [1, b] row broadcast to [a, b] reads, at (p, q), the row at q.
-/
import Idealize.ShloMosaic.Lib.ValueIdx
import Idealize.ShloMosaic.Lib.Pipeline.Value

noncomputable section

namespace LibRowOps

open Idealize.ShloMosaic Idealize.ShloMosaic.ValueIdx

/-- A vector of length b cast into the [1, b] row, read at (z, q): the vector at q. -/
theorem shapeCast_row_apply {α : Type} {b : ℕ} (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h _ _ ?_
  rw [Shape.rowMajor_val_one, Shape.rowMajor_val_two]
  show q.val = z.val * b + q.val
  have := z.isLt
  have hz : z.val = 0 := by omega
  rw [hz, Nat.zero_mul, Nat.zero_add]

/-- A [1, b] row broadcast to [a, b] reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

end LibRowOps

end
-- ==== Proof.LibDenseLayer.lean ====
/-
  One dense layer in the two programs' spellings, at exact arithmetic.

  A product of an M×K by a K×N matrix, whether the TensorCore's (into a zero accumulator, operands narrowed to bf16, which
  is the identity on extended reals) or the host's, is at entry (p, q) the sum over k of l[p,k] · r[k,q]. A bias vector
  [N] laid out as the row [1, N] and repeated down the M rows reads b[q] at (p, q) in either spelling. So a layer
  "product, plus bias" and its clamp below at 0 are the same array in both programs.
-/
import Idealize.ShloMosaic.Lib.ValueIdx
import Idealize.ShloMosaic.Lib.Pipeline.Value
import Idealize.ShloMosaic.PureOps.Ideal.Laws
import proofs.«129108_j33028298506662_2_alg».proof.Proof.LibMatmulIdx
import proofs.«129108_j33028298506662_2_alg».proof.Proof.LibHostDotIdx
import proofs.«129108_j33028298506662_2_alg».proof.Proof.LibRowOps

noncomputable section

namespace LibDenseLayer

open Idealize.ShloMosaic Idealize.ShloMosaic.ValueIdx

/-- The contraction record of a plain matrix product: left axis 1 against right axis 0, no batch axes. -/
abbrev mmDims (M K N : ℕ)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section
variable {M K N : ℕ} (wf : DotDims.WF ⟨2, ![M, K]⟩ ⟨2, ![K, N]⟩ ⟨2, ![M, N]⟩ [1] [0] [0] [1] [] [])

theorem mm_l0 (j : (⟨2, ![M, N]⟩ : Shape).Idx) (k : (mmDims M K N wf).contr.Idx) :
    ((mmDims M K N wf).lhsIdx j k 0).val = (j 0).val := by
  unfold DotDims.lhsIdx
  rw [dif_neg (show ¬(0 : Fin 2) ∈ (mmDims M K N wf).lhsBatch from List.not_mem_nil),
    dif_pos (show (0 : Fin 2) ∈ (mmDims M K N wf).lhsNonContracting from List.mem_singleton.mpr rfl)]
  rfl

theorem mm_l1 (j : (⟨2, ![M, N]⟩ : Shape).Idx) (k : (mmDims M K N wf).contr.Idx) :
    ((mmDims M K N wf).lhsIdx j k 1).val = (k ⟨0, (Nat.zero_lt_one : 0 < 1)⟩).val :=
  (mmDims M K N wf).lhsIdx_val_of_single rfl j k

theorem mm_r0 (j : (⟨2, ![M, N]⟩ : Shape).Idx) (k : (mmDims M K N wf).contr.Idx) :
    ((mmDims M K N wf).rhsIdx j k 0).val = (k ⟨0, (Nat.zero_lt_one : 0 < 1)⟩).val :=
  (mmDims M K N wf).rhsIdx_val_of_single rfl j k

theorem mm_r1 (j : (⟨2, ![M, N]⟩ : Shape).Idx) (k : (mmDims M K N wf).contr.Idx) :
    ((mmDims M K N wf).rhsIdx j k 1).val = (j 1).val := by
  unfold DotDims.rhsIdx
  rw [dif_neg (show ¬(1 : Fin 2) ∈ (mmDims M K N wf).rhsBatch from List.not_mem_nil),
    dif_pos (show (1 : Fin 2) ∈ (mmDims M K N wf).rhsNonContracting from List.mem_singleton.mpr rfl)]
  rfl

/-- The TensorCore product into a zero accumulator at an entry. -/
theorem tc_apply {φ₁ φ₂ : FTy} (l : FVec Ideal ⟨2, ![M, K]⟩ φ₁) (r : FVec Ideal ⟨2, ![K, N]⟩ φ₂)
    (j : (⟨2, ![M, N]⟩ : Shape).Idx) :
    FloatOps.matmul (F := Ideal) (mmDims M K N wf) none l r (constant ⟨2, ![M, N]⟩ .f32 0x00000000#32) j
      = ∑ k : Fin K, l (ix2 (n0 := M) (n1 := K) (j 0) k) * r (ix2 (n0 := K) (n1 := N) k (j 1)) :=
  LibMatmulIdx.matmul2_apply (mmDims M K N wf) rfl rfl (mm_l0 wf) (mm_l1 wf) (mm_r0 wf) (mm_r1 wf) none l r j

/-- The host product at an entry. -/
theorem host_apply {φ₁ φ₂ : FTy} (l : FVec Ideal ⟨2, ![M, K]⟩ φ₁) (r : FVec Ideal ⟨2, ![K, N]⟩ φ₂)
    (j : (⟨2, ![M, N]⟩ : Shape).Idx) :
    Host.dotGeneral (F := Ideal) (mmDims M K N wf) none l r j
      = ∑ k : Fin K, l (ix2 (n0 := M) (n1 := K) (j 0) k) * r (ix2 (n0 := K) (n1 := N) k (j 1)) :=
  LibHostDotIdx.hostDot2_apply (mmDims M K N wf) rfl rfl (mm_l0 wf) (mm_l1 wf) (mm_r0 wf) (mm_r1 wf) none l r j

/-- The two products of the same operands are one array (narrowing an operand to bf16 is the identity). -/
theorem tc_eq_host (wf' : DotDims.WF ⟨2, ![M, K]⟩ ⟨2, ![K, N]⟩ ⟨2, ![M, N]⟩ [1] [0] [0] [1] [] [])
    (l : FVec Ideal ⟨2, ![M, K]⟩ .f32) (r : FVec Ideal ⟨2, ![K, N]⟩ .f32) (hb : FTy.bits .bf16 < FTy.bits .f32) :
    FloatOps.matmul (F := Ideal) (mmDims M K N wf) none (truncf .bf16 l hb) (truncf .bf16 r hb)
        (constant ⟨2, ![M, N]⟩ .f32 0x00000000#32)
      = Host.dotGeneral (F := Ideal) (mmDims M K N wf') none l r := by
  funext j
  rw [tc_apply, host_apply]
  rfl
end

/-- A bias [n] as the row [1, n] repeated down [m, n], in the host's spelling, at an entry. -/
theorem bias_host_apply {α : Type} {m n : ℕ}
    (h1 : (⟨1, ![n]⟩ : Shape).BroadcastsInDim ⟨2, ![1, n]⟩ ![1])
    (h2 : (⟨2, ![1, n]⟩ : Shape).BroadcastsInDim ⟨2, ![m, n]⟩ ![0, 1])
    (y : (⟨1, ![n]⟩ : Shape).Idx → α) (i : (⟨2, ![m, n]⟩ : Shape).Idx) :
    broadcastInDim ⟨2, ![m, n]⟩ ![0, 1] h2 (broadcastInDim ⟨2, ![1, n]⟩ ![1] h1 y) i = y (ix1 (n := n) (i 1)) := by
  have hi1 : (i 1).val < n := idx2_lt1 i
  refine (broadcastInDim_apply ![0, 1] h2 _ i (ix2 (n0 := 1) (n1 := n) (0 : Fin 1) (i 1)) (fun a => ?_)).trans
    (broadcastInDim_apply ![1] h1 y _ (ix1 (n := n) (i 1)) (fun a => ?_))
  · match a with
    | ⟨0, _⟩ => show (0 : ℕ) = if (1 : ℕ) = 1 then 0 else (i 0).val; rw [if_pos rfl]
    | ⟨1, _⟩ => show (i 1).val = if n = 1 then 0 else (i 1).val; split <;> omega
  · match a with
    | ⟨0, _⟩ => show (i 1).val = if n = 1 then 0 else (i 1).val; split <;> omega

/-- The same bias in the kernel's spelling: the vector cast to the row [1, n], re-cast to itself, broadcast to [m, n]. -/
theorem bias_kernel_apply {α : Type} {m n : ℕ}
    (hc : (⟨1, ![n]⟩ : Shape).ShapeCasts ⟨2, ![1, n]⟩) (hs : (⟨2, ![1, n]⟩ : Shape).ShapeCasts ⟨2, ![1, n]⟩)
    (hb : (⟨2, ![1, n]⟩ : Shape).Broadcasts ⟨2, ![m, n]⟩)
    (y : (⟨1, ![n]⟩ : Shape).Idx → α) (i : (⟨2, ![m, n]⟩ : Shape).Idx) :
    broadcastTo ⟨2, ![m, n]⟩ (shapeCast ⟨2, ![1, n]⟩ (shapeCast ⟨2, ![1, n]⟩ y hc) hs) hb i = y (ix1 (n := n) (i 1)) := by
  rw [shapeCast_self]
  obtain ⟨p, q, rfl⟩ : ∃ (p : Fin m) (q : Fin n), i = ix2 p q := ⟨i 0, i 1, eq_ix2 i⟩
  rw [LibRowOps.broadcastTo_row_apply, LibRowOps.shapeCast_row_apply]
  rfl

/-- The bias row is the same array in both spellings. -/
theorem bias_eq {α : Type} {m n : ℕ}
    (hc : (⟨1, ![n]⟩ : Shape).ShapeCasts ⟨2, ![1, n]⟩) (hs : (⟨2, ![1, n]⟩ : Shape).ShapeCasts ⟨2, ![1, n]⟩)
    (hb : (⟨2, ![1, n]⟩ : Shape).Broadcasts ⟨2, ![m, n]⟩)
    (h1 : (⟨1, ![n]⟩ : Shape).BroadcastsInDim ⟨2, ![1, n]⟩ ![1])
    (h2 : (⟨2, ![1, n]⟩ : Shape).BroadcastsInDim ⟨2, ![m, n]⟩ ![0, 1])
    (y : (⟨1, ![n]⟩ : Shape).Idx → α) :
    broadcastTo ⟨2, ![m, n]⟩ (shapeCast ⟨2, ![1, n]⟩ (shapeCast ⟨2, ![1, n]⟩ y hc) hs) hb
      = broadcastInDim ⟨2, ![m, n]⟩ ![0, 1] h2 (broadcastInDim ⟨2, ![1, n]⟩ ![1] h1 y) :=
  funext fun i => (bias_kernel_apply hc hs hb y i).trans (bias_host_apply h1 h2 y i).symm

/-- A scalar word splat over a shape is the same array whether splat in a kernel or broadcast from a rank-0 constant. -/
theorem splat_eq {s : Shape} (h : (⟨0, ![]⟩ : Shape).BroadcastsInDim s ![]) (w : BitVec 32) :
    (broadcast s (Scalar.ofBits (F := Ideal) .f32 w) : FVec Ideal s .f32)
      = broadcastInDim s ![] h (constant (F := Ideal) ⟨0, ![]⟩ .f32 w) :=
  funext fun i =>
    (show (broadcast s (Scalar.ofBits (F := Ideal) .f32 w) : FVec Ideal s .f32) i
        = constant (F := Ideal) ⟨0, ![]⟩ .f32 w ix0 from rfl).trans
      (broadcastInDim_apply ![] h (constant (F := Ideal) ⟨0, ![]⟩ .f32 w) i ix0 (fun a => a.elim0)).symm

end LibDenseLayer

end
-- ==== Proof.Region0.lean ====
/-
  The first kernel region (the projection) as whole-array functions.

  The region is a grid of 10 points; point t reads rows [5000·t, 5000·t + 5000) of the node features and the two whole
  weight matrices, and writes the same rows of the two products. A row of a product depends only on the same row of the
  features, so block t of either output is the restriction of ONE function of the whole arrays: entry (n, j) of the
  output is Σ_k X[n,k] · W[k,j]. The 10 blocks tile the 50000 rows, so after the region each output array IS that function.
-/
import proofs.«129108_j33028298506662_2_alg».proof.Proof.Gen.KernelIdeal.Frame
import proofs.«129108_j33028298506662_2_alg».proof.Proof.LibDenseLayer

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Rows times a weight matrix: entry (n, j) is Σ_k X[n,k] · W[k,j]. -/
def proj (X : S50000x128.Idx → EReal) (W : S128x64.Idx → EReal) : S50000x64.Idx → EReal :=
  fun i => ∑ k : Fin 128, X (ix2 (n0 := 50000) (n1 := 128) (i 0) k) * W (ix2 (n0 := 128) (n1 := 64) k (i 1))

/-- A product of two extended reals (a name that fixes the factors' type). -/
abbrev mulE (a b : EReal) : EReal := a * b

theorem hz : (![0, 0] : Fin 2 → Nat) = fun _ => 0 := funext fun a => by fin_cases a <;> rfl

/-- A block's product at an entry: the sum over the contracted axis. -/
theorem pay2_apply (x0 : Vec Ideal S5000x128 .f32) (x1 : Vec Ideal S128x64 .f32) (j : S5000x64.Idx) :
    k0_pay2 x0 x1 j = ∑ k : Fin 128, x0 (ix2 (n0 := 5000) (n1 := 128) (j 0) k) * x1 (ix2 (n0 := 128) (n1 := 64) k (j 1)) :=
  LibDenseLayer.tc_apply (M := 5000) (K := 128) (N := 64) dot_S5000x128_S128x64_S5000x64_1_0_0_1_n_n_wf
    (truncf .bf16 x0 bitsLt_bf16_f32) (truncf .bf16 x1 bitsLt_bf16_f32) j

theorem pay3_apply (x0 : Vec Ideal S5000x128 .f32) (x1 : Vec Ideal S128x64 .f32) (j : S5000x64.Idx) :
    k0_pay3 x0 x1 j = ∑ k : Fin 128, x0 (ix2 (n0 := 5000) (n1 := 128) (j 0) k) * x1 (ix2 (n0 := 128) (n1 := 64) k (j 1)) :=
  LibDenseLayer.tc_apply (M := 5000) (K := 128) (N := 64) dot_S5000x128_S128x64_S5000x64_1_0_0_1_n_n_wf
    (truncf .bf16 x0 bitsLt_bf16_f32) (truncf .bf16 x1 bitsLt_bf16_f32) j

/-- The printed index maps over the grid: the feature window and both output windows sit at block row t, column
    block 0; the weight windows at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The feature block's entry (p, k) at point t is the array's entry (5000·t + p, k). -/
theorem emb0 (t : Fin cfg0.N) (p : Fin 5000) (k : Fin 128) (r : Fin 50000) (hr : r.val = t.val * 5000 + p.val) :
    ((cfg0.win 0).blk t).view.emb (ix2 (n0 := 5000) (n1 := 128) p k) = ix2 (n0 := 50000) (n1 := 128) r k := by
  obtain ⟨e0, e1, -⟩ := idx_facts t
  funext a; apply Fin.ext
  match a with
  | ⟨0, _⟩ => show win0_0.index t (0 : Fin 2) * 5000 + 1 * p.val = r.val; omega
  | ⟨1, _⟩ => show win0_0.index t (1 : Fin 2) * 128 + 1 * k.val = k.val; omega

theorem emb1 (t : Fin cfg0.N) (k : Fin 128) (q : Fin 64) :
    ((cfg0.win 1).blk t).view.emb (ix2 (n0 := 128) (n1 := 64) k q) = ix2 (n0 := 128) (n1 := 64) k q := by
  obtain ⟨-, -, e0, e1, -⟩ := idx_facts t
  funext a; apply Fin.ext
  match a with
  | ⟨0, _⟩ => show win0_1.index t (0 : Fin 2) * 128 + 1 * k.val = k.val; omega
  | ⟨1, _⟩ => show win0_1.index t (1 : Fin 2) * 64 + 1 * q.val = q.val; omega

theorem emb2 (t : Fin cfg0.N) (k : Fin 128) (q : Fin 64) :
    ((cfg0.win 2).blk t).view.emb (ix2 (n0 := 128) (n1 := 64) k q) = ix2 (n0 := 128) (n1 := 64) k q := by
  obtain ⟨-, -, -, -, e0, e1, -⟩ := idx_facts t
  funext a; apply Fin.ext
  match a with
  | ⟨0, _⟩ => show win0_2.index t (0 : Fin 2) * 128 + 1 * k.val = k.val; omega
  | ⟨1, _⟩ => show win0_2.index t (1 : Fin 2) * 64 + 1 * q.val = q.val; omega

theorem emb3_0 (t : Fin cfg0.N) (j : S5000x64.Idx) : ((((cfg0.win 3).blk t).view.emb j) 0).val = t.val * 5000 + (j 0).val := by
  obtain ⟨-, -, -, -, -, -, e0, e1, -⟩ := idx_facts t
  show win0_3.index t (0 : Fin 2) * 5000 + 1 * (j 0).val = _; omega

theorem emb3_1 (t : Fin cfg0.N) (j : S5000x64.Idx) : ((((cfg0.win 3).blk t).view.emb j) 1).val = (j 1).val := by
  obtain ⟨-, -, -, -, -, -, e0, e1, -⟩ := idx_facts t
  show win0_3.index t (1 : Fin 2) * 64 + 1 * (j 1).val = _; omega

theorem emb4_0 (t : Fin cfg0.N) (j : S5000x64.Idx) : ((((cfg0.win 4).blk t).view.emb j) 0).val = t.val * 5000 + (j 0).val := by
  obtain ⟨-, -, -, -, -, -, -, -, e0, e1⟩ := idx_facts t
  show win0_4.index t (0 : Fin 2) * 5000 + 1 * (j 0).val = _; omega

theorem emb4_1 (t : Fin cfg0.N) (j : S5000x64.Idx) : ((((cfg0.win 4).blk t).view.emb j) 1).val = (j 1).val := by
  obtain ⟨-, -, -, -, -, -, -, -, e0, e1⟩ := idx_facts t
  show win0_4.index t (1 : Fin 2) * 64 + 1 * (j 1).val = _; omega

/-- What point t writes back to the first output is block t of the product with the first weight matrix. -/
theorem flushed3_eq (c : Dev nD) (t : Fin cfg0.N) :
    (dat0 V c).flushed 3 t = ((cfg0.win 3).blk t).view.read (Elt Ideal) (proj (V c main_arg0) (V c main_arg3)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x64) hz]
  funext j
  refine (pay2_apply _ _ j).trans ?_
  show _ = proj (V c main_arg0) (V c main_arg3) (((cfg0.win 3).blk t).view.emb j)
  unfold proj
  refine Finset.sum_congr rfl fun k _ => ?_
  show mulE (V c main_arg0 (((cfg0.win 0).blk t).view.emb (ix2 (n0 := 5000) (n1 := 128) (j 0) k)))
      (V c main_arg3 (((cfg0.win 1).blk t).view.emb (ix2 (n0 := 128) (n1 := 64) k (j 1)))) = _
  rw [emb0 t (j 0) k ((((cfg0.win 3).blk t).view.emb j) 0) (emb3_0 t j), emb1 t k (j 1)]
  have e : (j 1 : Fin 64) = (((cfg0.win 3).blk t).view.emb j) 1 := Fin.ext (emb3_1 t j).symm
  rw [e]

theorem flushed4_eq (c : Dev nD) (t : Fin cfg0.N) :
    (dat0 V c).flushed 4 t = ((cfg0.win 4).blk t).view.read (Elt Ideal) (proj (V c main_arg0) (V c main_arg5)) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x64) hz]
  funext j
  refine (pay3_apply _ _ j).trans ?_
  show _ = proj (V c main_arg0) (V c main_arg5) (((cfg0.win 4).blk t).view.emb j)
  unfold proj
  refine Finset.sum_congr rfl fun k _ => ?_
  show mulE (V c main_arg0 (((cfg0.win 0).blk t).view.emb (ix2 (n0 := 5000) (n1 := 128) (j 0) k)))
      (V c main_arg5 (((cfg0.win 2).blk t).view.emb (ix2 (n0 := 128) (n1 := 64) k (j 1)))) = _
  rw [emb0 t (j 0) k ((((cfg0.win 4).blk t).view.emb j) 0) (emb4_0 t j), emb2 t k (j 1)]
  have e : (j 1 : Fin 64) = (((cfg0.win 4).blk t).view.emb j) 1 := Fin.ext (emb4_1 t j).symm
  rw [e]

/-- An index of an output array is in point t's block iff its row is among the block's 5000 rows. -/
theorem mem_blk3 (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v4_0).slice (win0_3.rect t)).set ↔ _
  rw [View.set_slice_whole, Rect.mem_set_unit]
  exact Iff.rfl

theorem mem_blk4 (t : Fin cfg0.N) (i : S50000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v4_1).slice (win0_4.rect t)).set ↔ _
  rw [View.set_slice_whole, Rect.mem_set_unit]
  exact Iff.rfl

/-- Every row lies in the block of the point numbered row / 5000. -/
theorem cover3 (i : S50000x64.Idx) : ∃ t : Fin cfg0.N, (cfg0.win 3).flush t = true ∧ i ∈ ((cfg0.win 3).blk t).view.set := by
  have hi0 : (i 0).val < 50000 := idx2_lt0 i
  have hi1 : (i 1).val < 64 := idx2_lt1 i
  have hN : grid0.N = 10 := N_0
  let t : Fin cfg0.N := ⟨(i 0).val / 5000, by show (i 0).val / 5000 < grid0.N; omega⟩
  have ht : t.val = (i 0).val / 5000 := rfl
  obtain ⟨-, -, -, -, -, -, e0, e1, -⟩ := idx_facts t
  refine ⟨t, flush0_3 t, ?_⟩
  rw [mem_blk3]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

theorem cover4 (i : S50000x64.Idx) : ∃ t : Fin cfg0.N, (cfg0.win 4).flush t = true ∧ i ∈ ((cfg0.win 4).blk t).view.set := by
  have hi0 : (i 0).val < 50000 := idx2_lt0 i
  have hi1 : (i 1).val < 64 := idx2_lt1 i
  have hN : grid0.N = 10 := N_0
  let t : Fin cfg0.N := ⟨(i 0).val / 5000, by show (i 0).val / 5000 < grid0.N; omega⟩
  have ht : t.val = (i 0).val / 5000 := rfl
  obtain ⟨-, -, -, -, -, -, -, -, e0, e1⟩ := idx_facts t
  refine ⟨t, flush0_4 t, ?_⟩
  rw [mem_blk4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

/-- After the region the first output array is the features times the first weight matrix … -/
theorem final3 (c : Dev nD) : (dat0 V c).arrAt 3 cfg0.N = proj (V c main_arg0) (V c main_arg3) :=
  (dat0 V c).arrAt_eq_of_cover 3 (proj (V c main_arg0) (V c main_arg3)) (fun t _ => flushed3_eq V c t) cover3

/-- … and the second the features times the second. -/
theorem final4 (c : Dev nD) : (dat0 V c).arrAt 4 cfg0.N = proj (V c main_arg0) (V c main_arg5) :=
  (dat0 V c).arrAt_eq_of_cover 4 (proj (V c main_arg0) (V c main_arg5)) (fun t _ => flushed4_eq V c t) cover4

end Cert.KernelIdeal.Region0

end
-- ==== Proof.LibColRow.lean ====
/-
  Two-axis broadcasts of a column and of a row, read at an entry.

  A column [a, 1] repeated across b columns reads, at (p, q), the column's entry p; a vector of length n laid out as
  the row [1, n] and repeated down m rows reads, at any entry, the vector at the entry's column. Together with the
  row-vector-as-column forms these are the two "keepdims" broadcasts a row-scaled, bias-shifted matrix needs.
-/
import Idealize.ShloMosaic.Lib.ValueIdx
import Idealize.ShloMosaic.Lib.Pipeline.Value

noncomputable section

namespace LibColRow

open Idealize.ShloMosaic Idealize.ShloMosaic.ValueIdx

variable {α : Type}

/-- An [a, 1] column broadcast to [a, b] reads, at (p, q), the column at p. -/
theorem broadcastTo_col_apply {a b : ℕ} (v : (⟨2, ![a, 1]⟩ : Shape).Idx → α)
    (h : (⟨2, ![a, 1]⟩ : Shape).Broadcasts ⟨2, ![a, b]⟩) (ha : a ≠ 1) (p : Fin a) (q : Fin b) :
    broadcastTo ⟨2, ![a, b]⟩ v h (ix2 p q) = v (ix2 p (0 : Fin 1)) := by
  refine broadcastTo_apply v h _ _ (fun ax => ?_)
  match ax with
  | ⟨0, _⟩ => show p.val = if a = 1 then 0 else p.val; rw [if_neg ha]
  | ⟨1, _⟩ => show (0 : ℕ) = if (1 : ℕ) = 1 then 0 else q.val; rw [if_pos rfl]

/-- An [n] vector laid out as the row [1, n] and repeated down [m, n], at any entry: the vector at the entry's
    column. -/
theorem cols_apply {m n : ℕ} (hn : n ≠ 1)
    (h1 : (⟨1, ![n]⟩ : Shape).BroadcastsInDim ⟨2, ![1, n]⟩ ![1])
    (h2 : (⟨2, ![1, n]⟩ : Shape).BroadcastsInDim ⟨2, ![m, n]⟩ ![0, 1])
    (y : (⟨1, ![n]⟩ : Shape).Idx → α) (i : (⟨2, ![m, n]⟩ : Shape).Idx) :
    broadcastInDim ⟨2, ![m, n]⟩ ![0, 1] h2 (broadcastInDim ⟨2, ![1, n]⟩ ![1] h1 y) i = y (ix1 (n := n) (i 1)) := by
  refine (broadcastInDim_apply ![0, 1] h2 _ i (ix2 (n0 := 1) (n1 := n) (0 : Fin 1) (i 1)) (fun a => ?_)).trans
    (broadcastInDim_apply ![1] h1 y _ (ix1 (n := n) (i 1)) (fun a => ?_))
  · match a with
    | ⟨0, _⟩ => show (0 : ℕ) = if (1 : ℕ) = 1 then 0 else (i 0).val; rw [if_pos rfl]
    | ⟨1, _⟩ => show (i 1).val = if n = 1 then 0 else (i 1).val; rw [if_neg hn]
  · match a with
    | ⟨0, _⟩ => show (i 1).val = if n = 1 then 0 else (i 1).val; rw [if_neg hn]

/-- A scalar splat over any shape, written as a rank-0 broadcast, reads the scalar everywhere. -/
theorem splat_apply {t : Shape} (h : (⟨0, ![]⟩ : Shape).BroadcastsInDim t ![])
    (y : (⟨0, ![]⟩ : Shape).Idx → α) (i : t.Idx) :
    broadcastInDim t ![] h y i = y ix0 :=
  broadcastInDim_apply ![] h y i ix0 (fun a => a.elim0)

end LibColRow

end
-- ==== Proof.Region1.lean ====
/-
  The second kernel region (the combination) as a whole-array function.

  The region is a grid of 10 points; point t reads rows [5000·t, 5000·t + 5000) of the neighbour sums, of the root
  products and of the degree column, and the whole bias row, and writes the same rows of the output. Entry (n, j) of the
  output is  agg[n,j] · (1 / max(deg[n,0], 1)) + root[n,j] + bias[0,j]: it depends on row n only, so every block is the
  restriction of ONE function of the whole arrays, and the 10 blocks tile the 50000 rows.
-/
import proofs.«129108_j33028298506662_2_alg».proof.Proof.Gen.KernelIdeal.Frame
import proofs.«129108_j33028298506662_2_alg».proof.Proof.LibColRow
import proofs.«129108_j33028298506662_2_alg».proof.Proof.LibRowOps

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The real number 1 as the program writes it. -/
abbrev one : EReal := Ideal.ofBits .f32 0x3F800000#32

/-- Scaled neighbour sum plus root term plus bias, entry by entry. -/
def comb (A XR : S50000x64.Idx → EReal) (C : S50000x1.Idx → EReal) (B : S1x64.Idx → EReal) : S50000x64.Idx → EReal :=
  fun i => A i * Ideal.div one (max (C (ix2 (n0 := 50000) (n1 := 1) (i 0) (0 : Fin 1))) one) + XR i
    + B (ix2 (n0 := 1) (n1 := 64) (0 : Fin 1) (i 1))

/-- The combination of one entry's four inputs. -/
abbrev combAt (a d xr b : EReal) : EReal := a * Ideal.div one (max d one) + xr + b

theorem hz : (![0, 0] : Fin 2 → Nat) = fun _ => 0 := funext fun a => by fin_cases a <;> rfl

/-- The body's arithmetic at an entry of a block. -/
theorem pay1_apply (v0 : Vec Ideal S5000x1 .f32) (v6 v10 : Vec Ideal S5000x64 .f32) (v13 : Vec Ideal S1x64 .f32)
    (p : Fin 5000) (q : Fin 64) :
    k1_pay1 v0 v6 v10 v13 (ix2 (n0 := 5000) (n1 := 64) p q)
      = v6 (ix2 (n0 := 5000) (n1 := 64) p q) * Ideal.div one (max (v0 (ix2 (n0 := 5000) (n1 := 1) p (0 : Fin 1))) one)
        + v10 (ix2 (n0 := 5000) (n1 := 64) p q) + v13 (ix2 (n0 := 1) (n1 := 64) (0 : Fin 1) q) := by
  unfold k1_pay1
  simp only [shapeCast_self]
  show v6 (ix2 p q) * broadcastTo S5000x64 (divf (broadcast S5000x1 (Scalar.ofBits (F := Ideal) .f32 0x3F800000#32))
      (maximumf v0 (broadcast S5000x1 (Scalar.ofBits (F := Ideal) .f32 0x3F800000#32)))) broadcasts_S5000x1_S5000x64 (ix2 p q)
      + v10 (ix2 p q) + broadcastTo S5000x64 v13 broadcasts_S1x64_S5000x64 (ix2 p q) = _
  rw [LibColRow.broadcastTo_col_apply (a := 5000) (b := 64) _ broadcasts_S5000x1_S5000x64 (by decide) p q,
    LibRowOps.broadcastTo_row_apply (a := 5000) (b := 64) v13 broadcasts_S1x64_S5000x64 p q]
  rfl

theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem emb4_0 (t : Fin cfg1.N) (j : S5000x64.Idx) : ((((cfg1.win 4).blk t).view.emb j) 0).val = t.val * 5000 + (j 0).val := by
  obtain ⟨-, -, -, -, -, -, -, -, e0, e1⟩ := idx_facts t
  show win1_4.index t (0 : Fin 2) * 5000 + 1 * (j 0).val = _; omega

theorem emb4_1 (t : Fin cfg1.N) (j : S5000x64.Idx) : ((((cfg1.win 4).blk t).view.emb j) 1).val = (j 1).val := by
  obtain ⟨-, -, -, -, -, -, -, -, e0, e1⟩ := idx_facts t
  show win1_4.index t (1 : Fin 2) * 64 + 1 * (j 1).val = _; omega

theorem emb0 (t : Fin cfg1.N) (j : S5000x64.Idx) : ((cfg1.win 0).blk t).view.emb j = ((cfg1.win 4).blk t).view.emb j := by
  obtain ⟨a0, a1, -, -, -, -, -, -, e0, e1⟩ := idx_facts t
  funext a; apply Fin.ext
  match a with
  | ⟨0, _⟩ => show win1_0.index t (0 : Fin 2) * 5000 + 1 * (j 0).val = win1_4.index t (0 : Fin 2) * 5000 + 1 * (j 0).val; omega
  | ⟨1, _⟩ => show win1_0.index t (1 : Fin 2) * 64 + 1 * (j 1).val = win1_4.index t (1 : Fin 2) * 64 + 1 * (j 1).val; omega

theorem emb1 (t : Fin cfg1.N) (j : S5000x64.Idx) : ((cfg1.win 1).blk t).view.emb j = ((cfg1.win 4).blk t).view.emb j := by
  obtain ⟨-, -, a0, a1, -, -, -, -, e0, e1⟩ := idx_facts t
  funext a; apply Fin.ext
  match a with
  | ⟨0, _⟩ => show win1_1.index t (0 : Fin 2) * 5000 + 1 * (j 0).val = win1_4.index t (0 : Fin 2) * 5000 + 1 * (j 0).val; omega
  | ⟨1, _⟩ => show win1_1.index t (1 : Fin 2) * 64 + 1 * (j 1).val = win1_4.index t (1 : Fin 2) * 64 + 1 * (j 1).val; omega

theorem emb2 (t : Fin cfg1.N) (p : Fin 5000) (r : Fin 50000) (hr : r.val = t.val * 5000 + p.val) :
    ((cfg1.win 2).blk t).view.emb (ix2 (n0 := 5000) (n1 := 1) p (0 : Fin 1)) = ix2 (n0 := 50000) (n1 := 1) r (0 : Fin 1) := by
  obtain ⟨-, -, -, -, a0, a1, -⟩ := idx_facts t
  funext a; apply Fin.ext
  match a with
  | ⟨0, _⟩ => show win1_2.index t (0 : Fin 2) * 5000 + 1 * p.val = r.val; omega
  | ⟨1, _⟩ => show win1_2.index t (1 : Fin 2) * 1 + 1 * 0 = 0; omega

theorem emb3 (t : Fin cfg1.N) (q : Fin 64) :
    ((cfg1.win 3).blk t).view.emb (ix2 (n0 := 1) (n1 := 64) (0 : Fin 1) q) = ix2 (n0 := 1) (n1 := 64) (0 : Fin 1) q := by
  obtain ⟨-, -, -, -, -, -, a0, a1, -⟩ := idx_facts t
  funext a; apply Fin.ext
  match a with
  | ⟨0, _⟩ => show win1_3.index t (0 : Fin 2) * 1 + 1 * 0 = 0; omega
  | ⟨1, _⟩ => show win1_3.index t (1 : Fin 2) * 64 + 1 * q.val = q.val; omega

/-- What point t writes back is block t of the combination of the whole arrays. -/
theorem flushed4_eq (c : Dev nD) (t : Fin cfg1.N) :
    (dat1 V c).flushed 4 t = ((cfg1.win 4).blk t).view.read (Elt Ideal)
      (comb (V c main_v14) (V c main_v4_1) (V c main_v19) (V c main_v20)) := by
  show (cfg1.win 4).cut (grid1.coords t) ((dat1 V c).after 4 t) = _
  rw [after1_4]
  unfold out1_4
  rw [View.canon_unit_zero hz]
  simp only [View.ld_unit_zero (S := S5000x64) hz, View.ld_unit_zero (S := S5000x1) hz, View.ld_unit_zero (S := S1x64) hz]
  funext j
  obtain ⟨p, q, rfl⟩ : ∃ (p : Fin 5000) (q : Fin 64), j = ix2 p q := ⟨j 0, j 1, eq_ix2 j⟩
  refine (pay1_apply _ _ _ _ p q).trans ?_
  show combAt (V c main_v14 (((cfg1.win 0).blk t).view.emb (ix2 p q)))
      (V c main_v19 (((cfg1.win 2).blk t).view.emb (ix2 (n0 := 5000) (n1 := 1) p (0 : Fin 1))))
      (V c main_v4_1 (((cfg1.win 1).blk t).view.emb (ix2 p q)))
      (V c main_v20 (((cfg1.win 3).blk t).view.emb (ix2 (n0 := 1) (n1 := 64) (0 : Fin 1) q)))
    = comb (V c main_v14) (V c main_v4_1) (V c main_v19) (V c main_v20) (((cfg1.win 4).blk t).view.emb (ix2 p q))
  rw [emb0, emb1, emb2 t p ((((cfg1.win 4).blk t).view.emb (ix2 p q)) 0) (emb4_0 t (ix2 p q)), emb3 t q]
  have e : (q : Fin 64) = (((cfg1.win 4).blk t).view.emb (ix2 p q)) 1 := Fin.ext (emb4_1 t (ix2 p q)).symm
  unfold comb
  rw [← e]

theorem mem_blk4 (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v21).slice (win1_4.rect t)).set ↔ _
  rw [View.set_slice_whole, Rect.mem_set_unit]
  exact Iff.rfl

theorem cover4 (i : S50000x64.Idx) : ∃ t : Fin cfg1.N, (cfg1.win 4).flush t = true ∧ i ∈ ((cfg1.win 4).blk t).view.set := by
  have hi0 : (i 0).val < 50000 := idx2_lt0 i
  have hi1 : (i 1).val < 64 := idx2_lt1 i
  have hN : grid1.N = 10 := N_1
  let t : Fin cfg1.N := ⟨(i 0).val / 5000, by show (i 0).val / 5000 < grid1.N; omega⟩
  have ht : t.val = (i 0).val / 5000 := rfl
  obtain ⟨-, -, -, -, -, -, -, -, e0, e1⟩ := idx_facts t
  refine ⟨t, flush1_4 t, ?_⟩
  rw [mem_blk4]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- After the region its output array is the combination of the arrays it was entered with. -/
theorem final4 (c : Dev nD) :
    (dat1 V c).arrAt 4 cfg1.N = comb (V c main_v14) (V c main_v4_1) (V c main_v19) (V c main_v20) :=
  (dat1 V c).arrAt_eq_of_cover 4 _ (fun t _ => flushed4_eq V c t) cover4

end Cert.KernelIdeal.Region1

end
-- ==== Proof.Region2.lean ====
/-
  The third kernel region (pooling normalisation and the four dense layers) as a whole-array function.

  The region has a single grid point and every window's block is its whole array, so what the body computes from its
  loaded blocks IS what the output array holds afterwards: the body's arithmetic applied to the arrays the region was
  entered with.
-/
import proofs.«129108_j33028298506662_2_alg».proof.Proof.Gen.KernelIdeal.Frame
import Idealize.ShloMosaic.Lib.ValueIdx
import Idealize.ShloMosaic.Lib.Pipeline.Value
import Idealize.ShloMosaic.PureOps.Ideal

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's arithmetic on whole arrays: the pooled sums scaled by the reciprocal clamped counts, then three
    clamped dense layers and a last dense layer. -/
def mlp (gsum : Vec Ideal S500x64 .f32) (gcnt : Vec Ideal S500x1 .f32) (w0 : Vec Ideal S64x32 .f32) (b0 : Vec Ideal S1x32 .f32)
    (w1 : Vec Ideal S32x16 .f32) (b1 : Vec Ideal S1x16 .f32) (w2 : Vec Ideal S16x8 .f32) (b2 : Vec Ideal S1x8 .f32)
    (w3 : Vec Ideal S8x1 .f32) (b3 : Vec Ideal S1x1 .f32) : Vec Ideal S500x1 .f32 :=
  k2_pay1 (k2_pay2 gcnt gsum w0 b0 w1 b1 w2) (k2_pay3 b2) w3 b3

theorem hz : (![0, 0] : Fin 2 → Nat) = fun _ => 0 := funext fun a => by fin_cases a <;> rfl

/-- Every window of the region sits at block (0, 0). -/
theorem idx_facts : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0 :=
  (by decide +kernel : ∀ t : Fin grid2.N, _)

theorem emb0 (t : Fin cfg2.N) (y : S500x64.Idx) : ((cfg2.win 0).blk t).view.emb y = y := by
  obtain ⟨e0, e1, -⟩ := idx_facts t
  funext a; apply Fin.ext
  match a with
  | ⟨0, _⟩ => show win2_0.index t (0 : Fin 2) * 500 + 1 * (y 0).val = (y 0).val; omega
  | ⟨1, _⟩ => show win2_0.index t (1 : Fin 2) * 64 + 1 * (y 1).val = (y 1).val; omega

theorem emb1 (t : Fin cfg2.N) (y : S500x1.Idx) : ((cfg2.win 1).blk t).view.emb y = y := by
  obtain ⟨-, -, e0, e1, -⟩ := idx_facts t
  funext a; apply Fin.ext
  match a with
  | ⟨0, _⟩ => show win2_1.index t (0 : Fin 2) * 500 + 1 * (y 0).val = (y 0).val; omega
  | ⟨1, _⟩ => show win2_1.index t (1 : Fin 2) * 1 + 1 * (y 1).val = (y 1).val; omega

theorem emb2 (t : Fin cfg2.N) (y : S64x32.Idx) : ((cfg2.win 2).blk t).view.emb y = y := by
  obtain ⟨-, -, -, -, e0, e1, -⟩ := idx_facts t
  funext a; apply Fin.ext
  match a with
  | ⟨0, _⟩ => show win2_2.index t (0 : Fin 2) * 64 + 1 * (y 0).val = (y 0).val; omega
  | ⟨1, _⟩ => show win2_2.index t (1 : Fin 2) * 32 + 1 * (y 1).val = (y 1).val; omega

theorem emb3 (t : Fin cfg2.N) (y : S1x32.Idx) : ((cfg2.win 3).blk t).view.emb y = y := by
  obtain ⟨-, -, -, -, -, -, e0, e1, -⟩ := idx_facts t
  funext a; apply Fin.ext
  match a with
  | ⟨0, _⟩ => show win2_3.index t (0 : Fin 2) * 1 + 1 * (y 0).val = (y 0).val; omega
  | ⟨1, _⟩ => show win2_3.index t (1 : Fin 2) * 32 + 1 * (y 1).val = (y 1).val; omega

theorem emb4 (t : Fin cfg2.N) (y : S32x16.Idx) : ((cfg2.win 4).blk t).view.emb y = y := by
  obtain ⟨-, -, -, -, -, -, -, -, e0, e1, -⟩ := idx_facts t
  funext a; apply Fin.ext
  match a with
  | ⟨0, _⟩ => show win2_4.index t (0 : Fin 2) * 32 + 1 * (y 0).val = (y 0).val; omega
  | ⟨1, _⟩ => show win2_4.index t (1 : Fin 2) * 16 + 1 * (y 1).val = (y 1).val; omega

theorem emb5 (t : Fin cfg2.N) (y : S1x16.Idx) : ((cfg2.win 5).blk t).view.emb y = y := by
  obtain ⟨-, -, -, -, -, -, -, -, -, -, e0, e1, -⟩ := idx_facts t
  funext a; apply Fin.ext
  match a with
  | ⟨0, _⟩ => show win2_5.index t (0 : Fin 2) * 1 + 1 * (y 0).val = (y 0).val; omega
  | ⟨1, _⟩ => show win2_5.index t (1 : Fin 2) * 16 + 1 * (y 1).val = (y 1).val; omega

theorem emb6 (t : Fin cfg2.N) (y : S16x8.Idx) : ((cfg2.win 6).blk t).view.emb y = y := by
  obtain ⟨-, -, -, -, -, -, -, -, -, -, -, -, e0, e1, -⟩ := idx_facts t
  funext a; apply Fin.ext
  match a with
  | ⟨0, _⟩ => show win2_6.index t (0 : Fin 2) * 16 + 1 * (y 0).val = (y 0).val; omega
  | ⟨1, _⟩ => show win2_6.index t (1 : Fin 2) * 8 + 1 * (y 1).val = (y 1).val; omega

theorem emb7 (t : Fin cfg2.N) (y : S1x8.Idx) : ((cfg2.win 7).blk t).view.emb y = y := by
  obtain ⟨-, -, -, -, -, -, -, -, -, -, -, -, -, -, e0, e1, -⟩ := idx_facts t
  funext a; apply Fin.ext
  match a with
  | ⟨0, _⟩ => show win2_7.index t (0 : Fin 2) * 1 + 1 * (y 0).val = (y 0).val; omega
  | ⟨1, _⟩ => show win2_7.index t (1 : Fin 2) * 8 + 1 * (y 1).val = (y 1).val; omega

theorem emb8 (t : Fin cfg2.N) (y : S8x1.Idx) : ((cfg2.win 8).blk t).view.emb y = y := by
  obtain ⟨-, -, -, -, -, -, -, -, -, -, -, -, -, -, -, -, e0, e1, -⟩ := idx_facts t
  funext a; apply Fin.ext
  match a with
  | ⟨0, _⟩ => show win2_8.index t (0 : Fin 2) * 8 + 1 * (y 0).val = (y 0).val; omega
  | ⟨1, _⟩ => show win2_8.index t (1 : Fin 2) * 1 + 1 * (y 1).val = (y 1).val; omega

theorem emb9 (t : Fin cfg2.N) (y : S1x1.Idx) : ((cfg2.win 9).blk t).view.emb y = y := by
  obtain ⟨-, -, -, -, -, -, -, -, -, -, -, -, -, -, -, -, -, -, e0, e1, -⟩ := idx_facts t
  funext a; apply Fin.ext
  match a with
  | ⟨0, _⟩ => show win2_9.index t (0 : Fin 2) * 1 + 1 * (y 0).val = (y 0).val; omega
  | ⟨1, _⟩ => show win2_9.index t (1 : Fin 2) * 1 + 1 * (y 1).val = (y 1).val; omega

theorem emb10 (t : Fin cfg2.N) (y : S500x1.Idx) : ((cfg2.win 10).blk t).view.emb y = y := by
  obtain ⟨-, -, -, -, -, -, -, -, -, -, -, -, -, -, -, -, -, -, -, -, e0, e1⟩ := idx_facts t
  funext a; apply Fin.ext
  match a with
  | ⟨0, _⟩ => show win2_10.index t (0 : Fin 2) * 500 + 1 * (y 0).val = (y 0).val; omega
  | ⟨1, _⟩ => show win2_10.index t (1 : Fin 2) * 1 + 1 * (y 1).val = (y 1).val; omega

theorem blk0 (c : Dev nD) (t : Fin cfg2.N) : (iblk2 V c 0 t : S500x64.Idx → EReal) = V c main_v24 :=
  funext fun y => congrArg (V c main_v24) (emb0 t y)

theorem blk1 (c : Dev nD) (t : Fin cfg2.N) : (iblk2 V c 1 t : S500x1.Idx → EReal) = V c main_v29 :=
  funext fun y => congrArg (V c main_v29) (emb1 t y)

theorem blk2 (c : Dev nD) (t : Fin cfg2.N) : (iblk2 V c 2 t : S64x32.Idx → EReal) = V c main_arg6 :=
  funext fun y => congrArg (V c main_arg6) (emb2 t y)

theorem blk3 (c : Dev nD) (t : Fin cfg2.N) : (iblk2 V c 3 t : S1x32.Idx → EReal) = V c main_v30 :=
  funext fun y => congrArg (V c main_v30) (emb3 t y)

theorem blk4 (c : Dev nD) (t : Fin cfg2.N) : (iblk2 V c 4 t : S32x16.Idx → EReal) = V c main_arg8 :=
  funext fun y => congrArg (V c main_arg8) (emb4 t y)

theorem blk5 (c : Dev nD) (t : Fin cfg2.N) : (iblk2 V c 5 t : S1x16.Idx → EReal) = V c main_v31 :=
  funext fun y => congrArg (V c main_v31) (emb5 t y)

theorem blk6 (c : Dev nD) (t : Fin cfg2.N) : (iblk2 V c 6 t : S16x8.Idx → EReal) = V c main_arg10 :=
  funext fun y => congrArg (V c main_arg10) (emb6 t y)

theorem blk7 (c : Dev nD) (t : Fin cfg2.N) : (iblk2 V c 7 t : S1x8.Idx → EReal) = V c main_v32 :=
  funext fun y => congrArg (V c main_v32) (emb7 t y)

theorem blk8 (c : Dev nD) (t : Fin cfg2.N) : (iblk2 V c 8 t : S8x1.Idx → EReal) = V c main_arg12 :=
  funext fun y => congrArg (V c main_arg12) (emb8 t y)

theorem blk9 (c : Dev nD) (t : Fin cfg2.N) : (iblk2 V c 9 t : S1x1.Idx → EReal) = V c main_v33 :=
  funext fun y => congrArg (V c main_v33) (emb9 t y)

/-- What the single point writes back is the body's arithmetic of the whole arrays. -/
theorem flushed10_eq (c : Dev nD) (t : Fin cfg2.N) :
    (dat2 V c).flushed 10 t = ((cfg2.win 10).blk t).view.read (Elt Ideal)
      (mlp (V c main_v24) (V c main_v29) (V c main_arg6) (V c main_v30) (V c main_arg8) (V c main_v31) (V c main_arg10)
        (V c main_v32) (V c main_arg12) (V c main_v33)) := by
  show (cfg2.win 10).cut (grid2.coords t) ((dat2 V c).after 10 t) = _
  rw [after2_10]
  unfold out2_10
  rw [View.canon_unit_zero hz]
  simp only [View.ld_unit_zero (S := S500x64) hz, View.ld_unit_zero (S := S500x1) hz, View.ld_unit_zero (S := S64x32) hz, View.ld_unit_zero (S := S1x32) hz, View.ld_unit_zero (S := S32x16) hz, View.ld_unit_zero (S := S1x16) hz, View.ld_unit_zero (S := S16x8) hz, View.ld_unit_zero (S := S1x8) hz, View.ld_unit_zero (S := S8x1) hz, View.ld_unit_zero (S := S1x1) hz]
  rw [blk0 V c t, blk1 V c t, blk2 V c t, blk3 V c t, blk4 V c t, blk5 V c t, blk6 V c t, blk7 V c t, blk8 V c t, blk9 V c t]
  funext j
  show _ = mlp (V c main_v24) (V c main_v29) (V c main_arg6) (V c main_v30) (V c main_arg8) (V c main_v31) (V c main_arg10)
        (V c main_v32) (V c main_arg12) (V c main_v33) (((cfg2.win 10).blk t).view.emb j)
  rw [emb10 t j]
  rfl

theorem mem_blk10 (t : Fin cfg2.N) (i : S500x1.Idx) :
    i ∈ ((cfg2.win 10).blk t).view.set ↔ ∀ a : Fin 2, win2_10.index t a * S500x1.size a ≤ (i a).val ∧ (i a).val < win2_10.index t a * S500x1.size a + S500x1.size a := by
  show i ∈ ((View.whole main_v34).slice (win2_10.rect t)).set ↔ _
  rw [View.set_slice_whole, Rect.mem_set_unit]
  exact Iff.rfl

theorem cover10 (i : S500x1.Idx) : ∃ t : Fin cfg2.N, (cfg2.win 10).flush t = true ∧ i ∈ ((cfg2.win 10).blk t).view.set := by
  have hi0 : (i 0).val < 500 := idx2_lt0 i
  have hi1 : (i 1).val < 1 := idx2_lt1 i
  have hN : grid2.N = 1 := N_2
  let t : Fin cfg2.N := ⟨0, by show 0 < grid2.N; omega⟩
  obtain ⟨-, -, -, -, -, -, -, -, -, -, -, -, -, -, -, -, -, -, -, -, e0, e1⟩ := idx_facts t
  refine ⟨t, flush2_10 t, ?_⟩
  rw [mem_blk10]
  intro a
  match a with
  | ⟨0, _⟩ => show win2_10.index t (0 : Fin 2) * 500 ≤ (i 0).val ∧ (i 0).val < win2_10.index t (0 : Fin 2) * 500 + 500; omega
  | ⟨1, _⟩ => show win2_10.index t (1 : Fin 2) * 1 ≤ (i 1).val ∧ (i 1).val < win2_10.index t (1 : Fin 2) * 1 + 1; omega

/-- After the region the result array is the body's arithmetic of the arrays the region was entered with. -/
theorem final10 (c : Dev nD) :
    (dat2 V c).arrAt 10 cfg2.N = mlp (V c main_v24) (V c main_v29) (V c main_arg6) (V c main_v30) (V c main_arg8)
      (V c main_v31) (V c main_arg10) (V c main_v32) (V c main_arg12) (V c main_v33) :=
  (dat2 V c).arrAt_eq_of_cover 10 _ (fun t _ => flushed10_eq V c t) cover10

end Cert.KernelIdeal.Region2

end
-- ==== Proof.HostStretch.lean ====
/-
  The stretches of host operations between the kernel regions, read back.

  Each stretch is a list of host operations folded over the buffer contents it starts from. For the buffers the next
  region (or the result) reads, the fold's value is stated as the operations' composed term of the contents the stretch
  starts from; a buffer no operation of the stretch writes keeps its contents.
-/
import proofs.«129108_j33028298506662_2_alg».proof.Proof.Gen.KernelIdeal.Launch
import Idealize.ShloMosaic.Lib.StableHlo.Run
import Idealize.ShloMosaic.PureOps.Ideal

noncomputable section

namespace Cert.KernelIdeal.HostValue

open Cert.KernelIdeal Cert.KernelIdeal.Gen Idealize.ShloMosaic Idealize.ShloMosaic.TcCoe Idealize.SL.Sem Idealize.ShloMosaic.StableHlo

variable (W : Valuation τ sig (Elt Ideal))

/-! ## Before the first region: the two rows of the edge list -/

theorem ops0_main_v1 : after hostOps0 W (Proc.devRef .tc main_v1)
    = (shapeCast S600000 (extractStridedSlice S1x600000 ![0, 0] (W (Proc.devRef .tc main_arg1)) slices_S2x600000_S1x600000_0_0) shapeCasts_S1x600000_S600000) := by
  dsimp only [hostOps0]
  after_results <;> rfl

theorem ops0_main_v3 : after hostOps0 W (Proc.devRef .tc main_v3)
    = (shapeCast S600000 (extractStridedSlice S1x600000 ![1, 0] (W (Proc.devRef .tc main_arg1)) slices_S2x600000_S1x600000_1_0) shapeCasts_S1x600000_S600000) := by
  dsimp only [hostOps0]
  after_results <;> rfl

theorem ops0_main_arg0 : after hostOps0 W (Proc.devRef .tc main_arg0) = W (Proc.devRef .tc main_arg0) := by
  dsimp only [hostOps0]
  after_results

theorem ops0_main_arg2 : after hostOps0 W (Proc.devRef .tc main_arg2) = W (Proc.devRef .tc main_arg2) := by
  dsimp only [hostOps0]
  after_results

theorem ops0_main_arg3 : after hostOps0 W (Proc.devRef .tc main_arg3) = W (Proc.devRef .tc main_arg3) := by
  dsimp only [hostOps0]
  after_results

theorem ops0_main_arg4 : after hostOps0 W (Proc.devRef .tc main_arg4) = W (Proc.devRef .tc main_arg4) := by
  dsimp only [hostOps0]
  after_results

theorem ops0_main_arg5 : after hostOps0 W (Proc.devRef .tc main_arg5) = W (Proc.devRef .tc main_arg5) := by
  dsimp only [hostOps0]
  after_results

theorem ops0_main_arg6 : after hostOps0 W (Proc.devRef .tc main_arg6) = W (Proc.devRef .tc main_arg6) := by
  dsimp only [hostOps0]
  after_results

theorem ops0_main_arg7 : after hostOps0 W (Proc.devRef .tc main_arg7) = W (Proc.devRef .tc main_arg7) := by
  dsimp only [hostOps0]
  after_results

theorem ops0_main_arg8 : after hostOps0 W (Proc.devRef .tc main_arg8) = W (Proc.devRef .tc main_arg8) := by
  dsimp only [hostOps0]
  after_results

theorem ops0_main_arg9 : after hostOps0 W (Proc.devRef .tc main_arg9) = W (Proc.devRef .tc main_arg9) := by
  dsimp only [hostOps0]
  after_results

theorem ops0_main_arg10 : after hostOps0 W (Proc.devRef .tc main_arg10) = W (Proc.devRef .tc main_arg10) := by
  dsimp only [hostOps0]
  after_results

theorem ops0_main_arg11 : after hostOps0 W (Proc.devRef .tc main_arg11) = W (Proc.devRef .tc main_arg11) := by
  dsimp only [hostOps0]
  after_results

theorem ops0_main_arg12 : after hostOps0 W (Proc.devRef .tc main_arg12) = W (Proc.devRef .tc main_arg12) := by
  dsimp only [hostOps0]
  after_results

theorem ops0_main_arg13 : after hostOps0 W (Proc.devRef .tc main_arg13) = W (Proc.devRef .tc main_arg13) := by
  dsimp only [hostOps0]
  after_results

/-! ## Between the first and second regions: gather, the two segment sums, the layouts -/

theorem ops1_main_v14 : after hostOps1 W (Proc.devRef .tc main_v14)
    = Host.scatterAdd scatter_S50000x64_S600000x1_S600000x64_1_0_0_1 (broadcastInDim S50000x64 ![] bcast_S_S50000x64 (constant (F := Ideal) S_ .f32 0x00000000#32)) (broadcastInDim S600000x1 ![0] bcast_S600000_S600000x1_0 (W (Proc.devRef .tc main_v3)))
        (Host.gather gather_S50000x64_S600000x1_S600000x64_1_0_n_n_0_1_164 (W (Proc.devRef .tc main_v4_0)) (broadcastInDim S600000x1 ![0] bcast_S600000_S600000x1_0 (select (cmpi .slt (W (Proc.devRef .tc main_v1)) (broadcastInDim S600000 ![] bcast_S_S600000 (constantI S_ 32 0#32))) (addi (W (Proc.devRef .tc main_v1)) (broadcastInDim S600000 ![] bcast_S_S600000 (constantI S_ 32 50000#32))) (W (Proc.devRef .tc main_v1))))) := by
  dsimp only [hostOps1]
  after_results <;> rfl

theorem ops1_main_v19 : after hostOps1 W (Proc.devRef .tc main_v19)
    = shapeCast S50000x1 (Host.scatterAdd scatter_S50000_S600000x1_S600000_n_0_0_1 (broadcastInDim S50000 ![] bcast_S_S50000 (constant (F := Ideal) S_ .f32 0x00000000#32)) (broadcastInDim S600000x1 ![0] bcast_S600000_S600000x1_0 (W (Proc.devRef .tc main_v3))) (broadcastInDim S600000 ![] bcast_S_S600000 (constant (F := Ideal) S_ .f32 0x3F800000#32))) shapeCasts_S50000_S50000x1 := by
  dsimp only [hostOps1]
  after_results <;> rfl

theorem ops1_main_v20 : after hostOps1 W (Proc.devRef .tc main_v20)
    = shapeCast S1x64 (W (Proc.devRef .tc main_arg4)) shapeCasts_S64_S1x64 := by
  dsimp only [hostOps1]
  after_results <;> rfl

theorem ops1_main_v4_1 : after hostOps1 W (Proc.devRef .tc main_v4_1) = W (Proc.devRef .tc main_v4_1) := by
  dsimp only [hostOps1]
  after_results

theorem ops1_main_arg2 : after hostOps1 W (Proc.devRef .tc main_arg2) = W (Proc.devRef .tc main_arg2) := by
  dsimp only [hostOps1]
  after_results

theorem ops1_main_arg6 : after hostOps1 W (Proc.devRef .tc main_arg6) = W (Proc.devRef .tc main_arg6) := by
  dsimp only [hostOps1]
  after_results

theorem ops1_main_arg7 : after hostOps1 W (Proc.devRef .tc main_arg7) = W (Proc.devRef .tc main_arg7) := by
  dsimp only [hostOps1]
  after_results

theorem ops1_main_arg8 : after hostOps1 W (Proc.devRef .tc main_arg8) = W (Proc.devRef .tc main_arg8) := by
  dsimp only [hostOps1]
  after_results

theorem ops1_main_arg9 : after hostOps1 W (Proc.devRef .tc main_arg9) = W (Proc.devRef .tc main_arg9) := by
  dsimp only [hostOps1]
  after_results

theorem ops1_main_arg10 : after hostOps1 W (Proc.devRef .tc main_arg10) = W (Proc.devRef .tc main_arg10) := by
  dsimp only [hostOps1]
  after_results

theorem ops1_main_arg11 : after hostOps1 W (Proc.devRef .tc main_arg11) = W (Proc.devRef .tc main_arg11) := by
  dsimp only [hostOps1]
  after_results

theorem ops1_main_arg12 : after hostOps1 W (Proc.devRef .tc main_arg12) = W (Proc.devRef .tc main_arg12) := by
  dsimp only [hostOps1]
  after_results

theorem ops1_main_arg13 : after hostOps1 W (Proc.devRef .tc main_arg13) = W (Proc.devRef .tc main_arg13) := by
  dsimp only [hostOps1]
  after_results

/-! ## Between the second and third regions: the two pooling segment sums, the layouts -/

theorem ops2_main_v24 : after hostOps2 W (Proc.devRef .tc main_v24)
    = Host.scatterAdd scatter_S500x64_S50000x1_S50000x64_1_0_0_1 (broadcastInDim S500x64 ![] bcast_S_S500x64 (constant (F := Ideal) S_ .f32 0x00000000#32)) (broadcastInDim S50000x1 ![0] bcast_S50000_S50000x1_0 (W (Proc.devRef .tc main_arg2))) (W (Proc.devRef .tc main_v21)) := by
  dsimp only [hostOps2]
  after_results <;> rfl

theorem ops2_main_v29 : after hostOps2 W (Proc.devRef .tc main_v29)
    = shapeCast S500x1 (Host.scatterAdd scatter_S500_S50000x1_S50000_n_0_0_1 (broadcastInDim S500 ![] bcast_S_S500 (constant (F := Ideal) S_ .f32 0x00000000#32)) (broadcastInDim S50000x1 ![0] bcast_S50000_S50000x1_0 (W (Proc.devRef .tc main_arg2))) (broadcastInDim S50000 ![] bcast_S_S50000 (constant (F := Ideal) S_ .f32 0x3F800000#32))) shapeCasts_S500_S500x1 := by
  dsimp only [hostOps2]
  after_results <;> rfl

theorem ops2_main_v30 : after hostOps2 W (Proc.devRef .tc main_v30)
    = shapeCast S1x32 (W (Proc.devRef .tc main_arg7)) shapeCasts_S32_S1x32 := by
  dsimp only [hostOps2]
  after_results <;> rfl

theorem ops2_main_v31 : after hostOps2 W (Proc.devRef .tc main_v31)
    = shapeCast S1x16 (W (Proc.devRef .tc main_arg9)) shapeCasts_S16_S1x16 := by
  dsimp only [hostOps2]
  after_results <;> rfl

theorem ops2_main_v32 : after hostOps2 W (Proc.devRef .tc main_v32)
    = shapeCast S1x8 (W (Proc.devRef .tc main_arg11)) shapeCasts_S8_S1x8 := by
  dsimp only [hostOps2]
  after_results <;> rfl

theorem ops2_main_v33 : after hostOps2 W (Proc.devRef .tc main_v33)
    = shapeCast S1x1 (W (Proc.devRef .tc main_arg13)) shapeCasts_S1_S1x1 := by
  dsimp only [hostOps2]
  after_results <;> rfl

theorem ops2_main_arg6 : after hostOps2 W (Proc.devRef .tc main_arg6) = W (Proc.devRef .tc main_arg6) := by
  dsimp only [hostOps2]
  after_results

theorem ops2_main_arg8 : after hostOps2 W (Proc.devRef .tc main_arg8) = W (Proc.devRef .tc main_arg8) := by
  dsimp only [hostOps2]
  after_results

theorem ops2_main_arg10 : after hostOps2 W (Proc.devRef .tc main_arg10) = W (Proc.devRef .tc main_arg10) := by
  dsimp only [hostOps2]
  after_results

theorem ops2_main_arg12 : after hostOps2 W (Proc.devRef .tc main_arg12) = W (Proc.devRef .tc main_arg12) := by
  dsimp only [hostOps2]
  after_results

end Cert.KernelIdeal.HostValue

end
-- ==== Proof.KernelValue.lean ====
/-
  The idealized kernel's result as one function of its argument arrays.

  The run's last boundary is a fold: the edge rows are cut out of the edge list; the first region leaves the two
  products; the host gathers the projected rows along the source nodes, sums them and the unit weights over the target
  nodes; the second region combines; the host pools over the graph ids; the third region normalises and applies the
  dense layers. Walking the fold back, every buffer a step reads is named as a function of the argument arrays.
-/
import proofs.«129108_j33028298506662_2_alg».proof.Proof.KernelRun
import proofs.«129108_j33028298506662_2_alg».proof.Proof.Region0
import proofs.«129108_j33028298506662_2_alg».proof.Proof.Region1
import proofs.«129108_j33028298506662_2_alg».proof.Proof.Region2
import proofs.«129108_j33028298506662_2_alg».proof.Proof.HostStretch

set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo

/-! ## The pieces, as functions of the argument arrays -/

/-- Row 0 of the edge list: the source nodes. -/
def srcRow (ei : IVec S2x600000 32) : IVec S600000 32 :=
  shapeCast S600000 (extractStridedSlice S1x600000 ![0, 0] ei slices_S2x600000_S1x600000_0_0) shapeCasts_S1x600000_S600000
/-- Row 1 of the edge list: the target nodes. -/
def dstRow (ei : IVec S2x600000 32) : IVec S600000 32 :=
  shapeCast S600000 (extractStridedSlice S1x600000 ![1, 0] ei slices_S2x600000_S1x600000_1_0) shapeCasts_S1x600000_S600000
/-- The source nodes as a column of start indices, a negative one counted from the end. -/
def srcCol (ei : IVec S2x600000 32) : IVec S600000x1 32 :=
  broadcastInDim S600000x1 ![0] bcast_S600000_S600000x1_0 (select (cmpi .slt (srcRow ei) (broadcastInDim S600000 ![] bcast_S_S600000 (constantI S_ 32 0#32))) (addi (srcRow ei) (broadcastInDim S600000 ![] bcast_S_S600000 (constantI S_ 32 50000#32))) (srcRow ei))
/-- The target nodes as a column of scatter indices. -/
def dstCol (ei : IVec S2x600000 32) : IVec S600000x1 32 :=
  broadcastInDim S600000x1 ![0] bcast_S600000_S600000x1_0 (dstRow ei)
/-- The projected rows gathered along the sources and summed over the targets. -/
def agg (x : FVec Ideal S50000x128 .f32) (wl : FVec Ideal S128x64 .f32) (ei : IVec S2x600000 32) : FVec Ideal S50000x64 .f32 :=
  Host.scatterAdd scatter_S50000x64_S600000x1_S600000x64_1_0_0_1 (broadcastInDim S50000x64 ![] bcast_S_S50000x64 (constant (F := Ideal) S_ .f32 0x00000000#32)) (dstCol ei)
    (Host.gather gather_S50000x64_S600000x1_S600000x64_1_0_n_n_0_1_164 (Region0.proj x wl) (srcCol ei))
/-- The number of edges into each node. -/
def deg (ei : IVec S2x600000 32) : FVec Ideal S50000 .f32 :=
  Host.scatterAdd scatter_S50000_S600000x1_S600000_n_0_0_1 (broadcastInDim S50000 ![] bcast_S_S50000 (constant (F := Ideal) S_ .f32 0x00000000#32)) (dstCol ei) (broadcastInDim S600000 ![] bcast_S_S600000 (constant (F := Ideal) S_ .f32 0x3F800000#32))
/-- The node features after the convolution. -/
def x1 (x : FVec Ideal S50000x128 .f32) (ei : IVec S2x600000 32) (wl : FVec Ideal S128x64 .f32) (bl : FVec Ideal S64 .f32)
    (wr : FVec Ideal S128x64 .f32) : FVec Ideal S50000x64 .f32 :=
  Region1.comb (agg x wl ei) (Region0.proj x wr) (shapeCast S50000x1 (deg ei) shapeCasts_S50000_S50000x1)
    (shapeCast S1x64 bl shapeCasts_S64_S1x64)
/-- The graph ids as a column of scatter indices. -/
def batchCol (b : IVec S50000 32) : IVec S50000x1 32 := broadcastInDim S50000x1 ![0] bcast_S50000_S50000x1_0 b
/-- The pooled sums of given node features. -/
def gsum (b : IVec S50000 32) (f : FVec Ideal S50000x64 .f32) : FVec Ideal S500x64 .f32 :=
  Host.scatterAdd scatter_S500x64_S50000x1_S50000x64_1_0_0_1 (broadcastInDim S500x64 ![] bcast_S_S500x64 (constant (F := Ideal) S_ .f32 0x00000000#32)) (batchCol b) f
/-- The number of nodes of each graph, as a column. -/
def gcnt (b : IVec S50000 32) : FVec Ideal S500x1 .f32 :=
  shapeCast S500x1 (Host.scatterAdd scatter_S500_S50000x1_S50000_n_0_0_1 (broadcastInDim S500 ![] bcast_S_S500 (constant (F := Ideal) S_ .f32 0x00000000#32)) (batchCol b) (broadcastInDim S50000 ![] bcast_S_S50000 (constant (F := Ideal) S_ .f32 0x3F800000#32))) shapeCasts_S500_S500x1
/-- The result from given node features. -/
def tail (f : FVec Ideal S50000x64 .f32) (b : IVec S50000 32) (w0 : FVec Ideal S64x32 .f32) (b0 : FVec Ideal S32 .f32)
    (w1 : FVec Ideal S32x16 .f32) (b1 : FVec Ideal S16 .f32) (w2 : FVec Ideal S16x8 .f32) (b2 : FVec Ideal S8 .f32)
    (w3 : FVec Ideal S8x1 .f32) (b3 : FVec Ideal S1 .f32) : FVec Ideal S500x1 .f32 :=
  Region2.mlp (gsum b f) (gcnt b) w0 (shapeCast S1x32 b0 shapeCasts_S32_S1x32) w1 (shapeCast S1x16 b1 shapeCasts_S16_S1x16)
    w2 (shapeCast S1x8 b2 shapeCasts_S8_S1x8) w3 (shapeCast S1x1 b3 shapeCasts_S1_S1x1)

/-! ## The fold, walked back -/

variable (m : (ℓ : Loc nD τ sig) → Buf (Elt Ideal) ℓ) (ρ : Dev nD → PrngReg) (c : Dev nD)

theorem W1_arg0 : W1 m ρ c (Proc.devRef .tc main_arg0) = (m ((c : Thread nD τ).loc main_arg0)) := HostValue.ops0_main_arg0 (W0 m ρ c)
theorem W1_arg2 : W1 m ρ c (Proc.devRef .tc main_arg2) = (m ((c : Thread nD τ).loc main_arg2)) := HostValue.ops0_main_arg2 (W0 m ρ c)
theorem W1_arg3 : W1 m ρ c (Proc.devRef .tc main_arg3) = (m ((c : Thread nD τ).loc main_arg3)) := HostValue.ops0_main_arg3 (W0 m ρ c)
theorem W1_arg4 : W1 m ρ c (Proc.devRef .tc main_arg4) = (m ((c : Thread nD τ).loc main_arg4)) := HostValue.ops0_main_arg4 (W0 m ρ c)
theorem W1_arg5 : W1 m ρ c (Proc.devRef .tc main_arg5) = (m ((c : Thread nD τ).loc main_arg5)) := HostValue.ops0_main_arg5 (W0 m ρ c)
theorem W1_arg6 : W1 m ρ c (Proc.devRef .tc main_arg6) = (m ((c : Thread nD τ).loc main_arg6)) := HostValue.ops0_main_arg6 (W0 m ρ c)
theorem W1_arg7 : W1 m ρ c (Proc.devRef .tc main_arg7) = (m ((c : Thread nD τ).loc main_arg7)) := HostValue.ops0_main_arg7 (W0 m ρ c)
theorem W1_arg8 : W1 m ρ c (Proc.devRef .tc main_arg8) = (m ((c : Thread nD τ).loc main_arg8)) := HostValue.ops0_main_arg8 (W0 m ρ c)
theorem W1_arg9 : W1 m ρ c (Proc.devRef .tc main_arg9) = (m ((c : Thread nD τ).loc main_arg9)) := HostValue.ops0_main_arg9 (W0 m ρ c)
theorem W1_arg10 : W1 m ρ c (Proc.devRef .tc main_arg10) = (m ((c : Thread nD τ).loc main_arg10)) := HostValue.ops0_main_arg10 (W0 m ρ c)
theorem W1_arg11 : W1 m ρ c (Proc.devRef .tc main_arg11) = (m ((c : Thread nD τ).loc main_arg11)) := HostValue.ops0_main_arg11 (W0 m ρ c)
theorem W1_arg12 : W1 m ρ c (Proc.devRef .tc main_arg12) = (m ((c : Thread nD τ).loc main_arg12)) := HostValue.ops0_main_arg12 (W0 m ρ c)
theorem W1_arg13 : W1 m ρ c (Proc.devRef .tc main_arg13) = (m ((c : Thread nD τ).loc main_arg13)) := HostValue.ops0_main_arg13 (W0 m ρ c)
theorem W1_v1 : W1 m ρ c (Proc.devRef .tc main_v1) = srcRow (m ((c : Thread nD τ).loc main_arg1)) := HostValue.ops0_main_v1 (W0 m ρ c)
theorem W1_v3 : W1 m ρ c (Proc.devRef .tc main_v3) = dstRow (m ((c : Thread nD τ).loc main_arg1)) := HostValue.ops0_main_v3 (W0 m ρ c)

theorem W2_v1 : W2 m ρ c (Proc.devRef .tc main_v1) = srcRow (m ((c : Thread nD τ).loc main_arg1)) := (W2_of_ne m ρ c main_v1 (by decide)).trans (W1_v1 m ρ c)
theorem W2_v3 : W2 m ρ c (Proc.devRef .tc main_v3) = dstRow (m ((c : Thread nD τ).loc main_arg1)) := (W2_of_ne m ρ c main_v3 (by decide)).trans (W1_v3 m ρ c)
theorem W2_arg2 : W2 m ρ c (Proc.devRef .tc main_arg2) = (m ((c : Thread nD τ).loc main_arg2)) := (W2_of_ne m ρ c main_arg2 (by decide)).trans (W1_arg2 m ρ c)
theorem W2_arg4 : W2 m ρ c (Proc.devRef .tc main_arg4) = (m ((c : Thread nD τ).loc main_arg4)) := (W2_of_ne m ρ c main_arg4 (by decide)).trans (W1_arg4 m ρ c)
theorem W2_arg6 : W2 m ρ c (Proc.devRef .tc main_arg6) = (m ((c : Thread nD τ).loc main_arg6)) := (W2_of_ne m ρ c main_arg6 (by decide)).trans (W1_arg6 m ρ c)
theorem W2_arg7 : W2 m ρ c (Proc.devRef .tc main_arg7) = (m ((c : Thread nD τ).loc main_arg7)) := (W2_of_ne m ρ c main_arg7 (by decide)).trans (W1_arg7 m ρ c)
theorem W2_arg8 : W2 m ρ c (Proc.devRef .tc main_arg8) = (m ((c : Thread nD τ).loc main_arg8)) := (W2_of_ne m ρ c main_arg8 (by decide)).trans (W1_arg8 m ρ c)
theorem W2_arg9 : W2 m ρ c (Proc.devRef .tc main_arg9) = (m ((c : Thread nD τ).loc main_arg9)) := (W2_of_ne m ρ c main_arg9 (by decide)).trans (W1_arg9 m ρ c)
theorem W2_arg10 : W2 m ρ c (Proc.devRef .tc main_arg10) = (m ((c : Thread nD τ).loc main_arg10)) := (W2_of_ne m ρ c main_arg10 (by decide)).trans (W1_arg10 m ρ c)
theorem W2_arg11 : W2 m ρ c (Proc.devRef .tc main_arg11) = (m ((c : Thread nD τ).loc main_arg11)) := (W2_of_ne m ρ c main_arg11 (by decide)).trans (W1_arg11 m ρ c)
theorem W2_arg12 : W2 m ρ c (Proc.devRef .tc main_arg12) = (m ((c : Thread nD τ).loc main_arg12)) := (W2_of_ne m ρ c main_arg12 (by decide)).trans (W1_arg12 m ρ c)
theorem W2_arg13 : W2 m ρ c (Proc.devRef .tc main_arg13) = (m ((c : Thread nD τ).loc main_arg13)) := (W2_of_ne m ρ c main_arg13 (by decide)).trans (W1_arg13 m ρ c)
/-- The first region leaves the two products. -/
theorem W2_v4_0 : W2 m ρ c (Proc.devRef .tc main_v4_0) = Region0.proj (m ((c : Thread nD τ).loc main_arg0)) (m ((c : Thread nD τ).loc main_arg3)) := by
  refine (W2_arr m ρ c 3).trans ((Region0.final3 (V1 m ρ) c).trans ?_)
  show Region0.proj (W1 m ρ c (Proc.devRef .tc main_arg0)) (W1 m ρ c (Proc.devRef .tc main_arg3)) = _
  rw [W1_arg0, W1_arg3]
theorem W2_v4_1 : W2 m ρ c (Proc.devRef .tc main_v4_1) = Region0.proj (m ((c : Thread nD τ).loc main_arg0)) (m ((c : Thread nD τ).loc main_arg5)) := by
  refine (W2_arr m ρ c 4).trans ((Region0.final4 (V1 m ρ) c).trans ?_)
  show Region0.proj (W1 m ρ c (Proc.devRef .tc main_arg0)) (W1 m ρ c (Proc.devRef .tc main_arg5)) = _
  rw [W1_arg0, W1_arg5]

theorem W3_v14 : W3 m ρ c (Proc.devRef .tc main_v14) = agg (m ((c : Thread nD τ).loc main_arg0)) (m ((c : Thread nD τ).loc main_arg3)) (m ((c : Thread nD τ).loc main_arg1)) := by
  refine (HostValue.ops1_main_v14 (W2 m ρ c)).trans ?_
  rw [W2_v3, W2_v1, W2_v4_0]
  rfl
theorem W3_v19 : W3 m ρ c (Proc.devRef .tc main_v19) = shapeCast S50000x1 (deg (m ((c : Thread nD τ).loc main_arg1))) shapeCasts_S50000_S50000x1 := by
  refine (HostValue.ops1_main_v19 (W2 m ρ c)).trans ?_
  rw [W2_v3]
  rfl
theorem W3_v20 : W3 m ρ c (Proc.devRef .tc main_v20) = shapeCast S1x64 (m ((c : Thread nD τ).loc main_arg4)) shapeCasts_S64_S1x64 := by
  refine (HostValue.ops1_main_v20 (W2 m ρ c)).trans ?_
  rw [W2_arg4]
theorem W3_v4_1 : W3 m ρ c (Proc.devRef .tc main_v4_1) = Region0.proj (m ((c : Thread nD τ).loc main_arg0)) (m ((c : Thread nD τ).loc main_arg5)) :=
  (HostValue.ops1_main_v4_1 (W2 m ρ c)).trans (W2_v4_1 m ρ c)
theorem W3_arg2 : W3 m ρ c (Proc.devRef .tc main_arg2) = (m ((c : Thread nD τ).loc main_arg2)) := (HostValue.ops1_main_arg2 (W2 m ρ c)).trans (W2_arg2 m ρ c)
theorem W3_arg6 : W3 m ρ c (Proc.devRef .tc main_arg6) = (m ((c : Thread nD τ).loc main_arg6)) := (HostValue.ops1_main_arg6 (W2 m ρ c)).trans (W2_arg6 m ρ c)
theorem W3_arg7 : W3 m ρ c (Proc.devRef .tc main_arg7) = (m ((c : Thread nD τ).loc main_arg7)) := (HostValue.ops1_main_arg7 (W2 m ρ c)).trans (W2_arg7 m ρ c)
theorem W3_arg8 : W3 m ρ c (Proc.devRef .tc main_arg8) = (m ((c : Thread nD τ).loc main_arg8)) := (HostValue.ops1_main_arg8 (W2 m ρ c)).trans (W2_arg8 m ρ c)
theorem W3_arg9 : W3 m ρ c (Proc.devRef .tc main_arg9) = (m ((c : Thread nD τ).loc main_arg9)) := (HostValue.ops1_main_arg9 (W2 m ρ c)).trans (W2_arg9 m ρ c)
theorem W3_arg10 : W3 m ρ c (Proc.devRef .tc main_arg10) = (m ((c : Thread nD τ).loc main_arg10)) := (HostValue.ops1_main_arg10 (W2 m ρ c)).trans (W2_arg10 m ρ c)
theorem W3_arg11 : W3 m ρ c (Proc.devRef .tc main_arg11) = (m ((c : Thread nD τ).loc main_arg11)) := (HostValue.ops1_main_arg11 (W2 m ρ c)).trans (W2_arg11 m ρ c)
theorem W3_arg12 : W3 m ρ c (Proc.devRef .tc main_arg12) = (m ((c : Thread nD τ).loc main_arg12)) := (HostValue.ops1_main_arg12 (W2 m ρ c)).trans (W2_arg12 m ρ c)
theorem W3_arg13 : W3 m ρ c (Proc.devRef .tc main_arg13) = (m ((c : Thread nD τ).loc main_arg13)) := (HostValue.ops1_main_arg13 (W2 m ρ c)).trans (W2_arg13 m ρ c)

/-- The second region leaves the convolved node features. -/
theorem W4_v21 : W4 m ρ c (Proc.devRef .tc main_v21)
    = x1 (m ((c : Thread nD τ).loc main_arg0)) (m ((c : Thread nD τ).loc main_arg1)) (m ((c : Thread nD τ).loc main_arg3)) (m ((c : Thread nD τ).loc main_arg4)) (m ((c : Thread nD τ).loc main_arg5)) := by
  refine (W4_arr m ρ c 4).trans ((Region1.final4 (V3 m ρ) c).trans ?_)
  show Region1.comb (W3 m ρ c (Proc.devRef .tc main_v14)) (W3 m ρ c (Proc.devRef .tc main_v4_1))
    (W3 m ρ c (Proc.devRef .tc main_v19)) (W3 m ρ c (Proc.devRef .tc main_v20)) = _
  rw [W3_v14, W3_v4_1, W3_v19, W3_v20]
  rfl
theorem W4_arg2 : W4 m ρ c (Proc.devRef .tc main_arg2) = (m ((c : Thread nD τ).loc main_arg2)) := (W4_of_ne m ρ c main_arg2 (by decide)).trans (W3_arg2 m ρ c)
theorem W4_arg6 : W4 m ρ c (Proc.devRef .tc main_arg6) = (m ((c : Thread nD τ).loc main_arg6)) := (W4_of_ne m ρ c main_arg6 (by decide)).trans (W3_arg6 m ρ c)
theorem W4_arg7 : W4 m ρ c (Proc.devRef .tc main_arg7) = (m ((c : Thread nD τ).loc main_arg7)) := (W4_of_ne m ρ c main_arg7 (by decide)).trans (W3_arg7 m ρ c)
theorem W4_arg8 : W4 m ρ c (Proc.devRef .tc main_arg8) = (m ((c : Thread nD τ).loc main_arg8)) := (W4_of_ne m ρ c main_arg8 (by decide)).trans (W3_arg8 m ρ c)
theorem W4_arg9 : W4 m ρ c (Proc.devRef .tc main_arg9) = (m ((c : Thread nD τ).loc main_arg9)) := (W4_of_ne m ρ c main_arg9 (by decide)).trans (W3_arg9 m ρ c)
theorem W4_arg10 : W4 m ρ c (Proc.devRef .tc main_arg10) = (m ((c : Thread nD τ).loc main_arg10)) := (W4_of_ne m ρ c main_arg10 (by decide)).trans (W3_arg10 m ρ c)
theorem W4_arg11 : W4 m ρ c (Proc.devRef .tc main_arg11) = (m ((c : Thread nD τ).loc main_arg11)) := (W4_of_ne m ρ c main_arg11 (by decide)).trans (W3_arg11 m ρ c)
theorem W4_arg12 : W4 m ρ c (Proc.devRef .tc main_arg12) = (m ((c : Thread nD τ).loc main_arg12)) := (W4_of_ne m ρ c main_arg12 (by decide)).trans (W3_arg12 m ρ c)
theorem W4_arg13 : W4 m ρ c (Proc.devRef .tc main_arg13) = (m ((c : Thread nD τ).loc main_arg13)) := (W4_of_ne m ρ c main_arg13 (by decide)).trans (W3_arg13 m ρ c)

theorem W5_v24 : W5 m ρ c (Proc.devRef .tc main_v24)
    = gsum (m ((c : Thread nD τ).loc main_arg2)) (x1 (m ((c : Thread nD τ).loc main_arg0)) (m ((c : Thread nD τ).loc main_arg1)) (m ((c : Thread nD τ).loc main_arg3)) (m ((c : Thread nD τ).loc main_arg4)) (m ((c : Thread nD τ).loc main_arg5))) := by
  refine (HostValue.ops2_main_v24 (W4 m ρ c)).trans ?_
  rw [W4_arg2, W4_v21]
  rfl
theorem W5_v29 : W5 m ρ c (Proc.devRef .tc main_v29) = gcnt (m ((c : Thread nD τ).loc main_arg2)) := by
  refine (HostValue.ops2_main_v29 (W4 m ρ c)).trans ?_
  rw [W4_arg2]
  rfl
theorem W5_v30 : W5 m ρ c (Proc.devRef .tc main_v30) = shapeCast S1x32 (m ((c : Thread nD τ).loc main_arg7)) shapeCasts_S32_S1x32 := by
  refine (HostValue.ops2_main_v30 (W4 m ρ c)).trans ?_
  rw [W4_arg7]
theorem W5_v31 : W5 m ρ c (Proc.devRef .tc main_v31) = shapeCast S1x16 (m ((c : Thread nD τ).loc main_arg9)) shapeCasts_S16_S1x16 := by
  refine (HostValue.ops2_main_v31 (W4 m ρ c)).trans ?_
  rw [W4_arg9]
theorem W5_v32 : W5 m ρ c (Proc.devRef .tc main_v32) = shapeCast S1x8 (m ((c : Thread nD τ).loc main_arg11)) shapeCasts_S8_S1x8 := by
  refine (HostValue.ops2_main_v32 (W4 m ρ c)).trans ?_
  rw [W4_arg11]
theorem W5_v33 : W5 m ρ c (Proc.devRef .tc main_v33) = shapeCast S1x1 (m ((c : Thread nD τ).loc main_arg13)) shapeCasts_S1_S1x1 := by
  refine (HostValue.ops2_main_v33 (W4 m ρ c)).trans ?_
  rw [W4_arg13]
theorem W5_arg6 : W5 m ρ c (Proc.devRef .tc main_arg6) = (m ((c : Thread nD τ).loc main_arg6)) := (HostValue.ops2_main_arg6 (W4 m ρ c)).trans (W4_arg6 m ρ c)
theorem W5_arg8 : W5 m ρ c (Proc.devRef .tc main_arg8) = (m ((c : Thread nD τ).loc main_arg8)) := (HostValue.ops2_main_arg8 (W4 m ρ c)).trans (W4_arg8 m ρ c)
theorem W5_arg10 : W5 m ρ c (Proc.devRef .tc main_arg10) = (m ((c : Thread nD τ).loc main_arg10)) := (HostValue.ops2_main_arg10 (W4 m ρ c)).trans (W4_arg10 m ρ c)
theorem W5_arg12 : W5 m ρ c (Proc.devRef .tc main_arg12) = (m ((c : Thread nD τ).loc main_arg12)) := (HostValue.ops2_main_arg12 (W4 m ρ c)).trans (W4_arg12 m ρ c)

/-- THE RESULT at the last boundary is the tail of the convolved node features of the arguments. -/
theorem result_eq : W6 m ρ c (Proc.devRef .tc main_v34)
    = tail (x1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg2))
        (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W6_arr m ρ c 10).trans ((Region2.final10 (V5 m ρ) c).trans ?_)
  show Region2.mlp (W5 m ρ c (Proc.devRef .tc main_v24)) (W5 m ρ c (Proc.devRef .tc main_v29))
    (W5 m ρ c (Proc.devRef .tc main_arg6)) (W5 m ρ c (Proc.devRef .tc main_v30))
    (W5 m ρ c (Proc.devRef .tc main_arg8)) (W5 m ρ c (Proc.devRef .tc main_v31))
    (W5 m ρ c (Proc.devRef .tc main_arg10)) (W5 m ρ c (Proc.devRef .tc main_v32))
    (W5 m ρ c (Proc.devRef .tc main_arg12)) (W5 m ρ c (Proc.devRef .tc main_v33)) = _
  rw [W5_v24, W5_v29, W5_arg6, W5_v30, W5_arg8, W5_v31, W5_arg10, W5_v32, W5_arg12, W5_v33]
  rfl

/-- The idealized kernel's run, its result named as a function of the argument arrays. -/
theorem run : θ_run defs (onTc (τ := τ) (main (F := Ideal))) ⟨m, fun _ => 0, ρ⟩ (fun r => ∀ c : Dev nD,
      r.2.mem ((c.tc : Thread nD τ).loc main_v34)
        = tail (x1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg2))
            (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (result_eq m ρ c), (h c).2⟩) (RunValue.run_named m ρ)

end Cert.KernelIdeal.KValue

end
-- ==== Proof.RefValue.lean ====
/-
  The idealized reference's result as a function of its argument arrays, in named pieces.

  The reference gathers the node features along the source nodes, sums them over the target nodes, divides by the
  clamped degree, multiplies by the first weight matrix, adds the bias and the root term; then pools over the graph ids,
  divides by the clamped graph sizes and applies the dense layers.
-/
import proofs.«129108_j33028298506662_2_alg».proof.Proof.Gen.ReferenceIdeal.Run
import Idealize.ShloMosaic.PureOps.Ideal

set_option maxRecDepth 16384

noncomputable section

namespace Cert.ReferenceIdeal.RefValue

open Cert.ReferenceIdeal Cert.ReferenceIdeal.Gen Idealize.ShloMosaic Idealize.ShloMosaic.TcCoe Idealize.SL.Sem

def srcRow (ei : IVec S2x600000 32) : IVec S600000 32 :=
  shapeCast S600000 (extractStridedSlice S1x600000 ![0, 0] ei slices_S2x600000_S1x600000_0_0) shapeCasts_S1x600000_S600000
def dstRow (ei : IVec S2x600000 32) : IVec S600000 32 :=
  shapeCast S600000 (extractStridedSlice S1x600000 ![1, 0] ei slices_S2x600000_S1x600000_1_0) shapeCasts_S1x600000_S600000
def srcCol (ei : IVec S2x600000 32) : IVec S600000x1 32 :=
  broadcastInDim S600000x1 ![0] bcast_S600000_S600000x1_0 (select (cmpi .slt (srcRow ei) (broadcastInDim S600000 ![] bcast_S_S600000 (constantI S_ 32 0#32))) (addi (srcRow ei) (broadcastInDim S600000 ![] bcast_S_S600000 (constantI S_ 32 50000#32))) (srcRow ei))
def dstCol (ei : IVec S2x600000 32) : IVec S600000x1 32 :=
  broadcastInDim S600000x1 ![0] bcast_S600000_S600000x1_0 (dstRow ei)
/-- The number of edges into each node. -/
def deg (ei : IVec S2x600000 32) : FVec Ideal S50000 .f32 :=
  Host.scatterAdd scatter_S50000_S600000x1_S600000_n_0_0_1 (broadcastInDim S50000 ![] bcast_S_S50000 (constant (F := Ideal) S_ .f32 0x00000000#32)) (dstCol ei) (broadcastInDim S600000 ![] bcast_S_S600000 (constant (F := Ideal) S_ .f32 0x3F800000#32))
/-- The gathered source rows summed over the target nodes. -/
def nbrSum (x : FVec Ideal S50000x128 .f32) (ei : IVec S2x600000 32) : FVec Ideal S50000x128 .f32 :=
  Host.scatterAdd scatter_S50000x128_S600000x1_S600000x128_1_0_0_1 (broadcastInDim S50000x128 ![] bcast_S_S50000x128 (constant (F := Ideal) S_ .f32 0x00000000#32)) (dstCol ei)
    (Host.gather gather_S50000x128_S600000x1_S600000x128_1_0_n_n_0_1_1128 x (srcCol ei))
/-- The neighbourhood mean. -/
def meanNbr (x : FVec Ideal S50000x128 .f32) (ei : IVec S2x600000 32) : FVec Ideal S50000x128 .f32 :=
  Host.divf (nbrSum x ei) (broadcastInDim S50000x128 ![0, 1] bcast_S50000x1_S50000x128_0_1
    (broadcastInDim S50000x1 ![0] bcast_S50000_S50000x1_0 (maximumf (deg ei) (broadcastInDim S50000 ![] bcast_S_S50000 (constant (F := Ideal) S_ .f32 0x3F800000#32)))))
/-- The node features after the convolution. -/
def x1 (x : FVec Ideal S50000x128 .f32) (ei : IVec S2x600000 32) (wl : FVec Ideal S128x64 .f32) (bl : FVec Ideal S64 .f32)
    (wr : FVec Ideal S128x64 .f32) : FVec Ideal S50000x64 .f32 :=
  addf (addf (Host.dotGeneral dot_S50000x128_S128x64_S50000x64_1_0_0_1_n_n none (meanNbr x ei) wl)
      (broadcastInDim S50000x64 ![0, 1] bcast_S1x64_S50000x64_0_1 (broadcastInDim S1x64 ![1] bcast_S64_S1x64_1 bl)))
    (Host.dotGeneral dot_S50000x128_S128x64_S50000x64_1_0_0_1_n_n none x wr)
/-- The pooled mean of given node features. -/
def pooled (f : FVec Ideal S50000x64 .f32) (b : IVec S50000 32) : FVec Ideal S500x64 .f32 :=
  Host.divf (Host.scatterAdd scatter_S500x64_S50000x1_S50000x64_1_0_0_1 (broadcastInDim S500x64 ![] bcast_S_S500x64 (constant (F := Ideal) S_ .f32 0x00000000#32)) (broadcastInDim S50000x1 ![0] bcast_S50000_S50000x1_0 b) f)
    (broadcastInDim S500x64 ![0, 1] bcast_S500x1_S500x64_0_1 (broadcastInDim S500x1 ![0] bcast_S500_S500x1_0
      (maximumf (Host.scatterAdd scatter_S500_S50000x1_S50000_n_0_0_1 (broadcastInDim S500 ![] bcast_S_S500 (constant (F := Ideal) S_ .f32 0x00000000#32)) (broadcastInDim S50000x1 ![0] bcast_S50000_S50000x1_0 b) (broadcastInDim S50000 ![] bcast_S_S50000 (constant (F := Ideal) S_ .f32 0x3F800000#32))) (broadcastInDim S500 ![] bcast_S_S500 (constant (F := Ideal) S_ .f32 0x3F800000#32)))))
/-- The result from given node features. -/
def tail (f : FVec Ideal S50000x64 .f32) (b : IVec S50000 32) (w0 : FVec Ideal S64x32 .f32) (b0 : FVec Ideal S32 .f32)
    (w1 : FVec Ideal S32x16 .f32) (b1 : FVec Ideal S16 .f32) (w2 : FVec Ideal S16x8 .f32) (b2 : FVec Ideal S8 .f32)
    (w3 : FVec Ideal S8x1 .f32) (b3 : FVec Ideal S1 .f32) : FVec Ideal S500x1 .f32 :=
  addf (Host.dotGeneral dot_S500x8_S8x1_S500x1_1_0_0_1_n_n none
    (maximumf (addf (Host.dotGeneral dot_S500x16_S16x8_S500x8_1_0_0_1_n_n none
      (maximumf (addf (Host.dotGeneral dot_S500x32_S32x16_S500x16_1_0_0_1_n_n none
        (maximumf (addf (Host.dotGeneral dot_S500x64_S64x32_S500x32_1_0_0_1_n_n none (pooled f b) w0)
            (broadcastInDim S500x32 ![0, 1] bcast_S1x32_S500x32_0_1 (broadcastInDim S1x32 ![1] bcast_S32_S1x32_1 b0)))
          (broadcastInDim S500x32 ![] bcast_S_S500x32 (constant (F := Ideal) S_ .f32 0x00000000#32))) w1)
          (broadcastInDim S500x16 ![0, 1] bcast_S1x16_S500x16_0_1 (broadcastInDim S1x16 ![1] bcast_S16_S1x16_1 b1)))
        (broadcastInDim S500x16 ![] bcast_S_S500x16 (constant (F := Ideal) S_ .f32 0x00000000#32))) w2)
        (broadcastInDim S500x8 ![0, 1] bcast_S1x8_S500x8_0_1 (broadcastInDim S1x8 ![1] bcast_S8_S1x8_1 b2)))
      (broadcastInDim S500x8 ![] bcast_S_S500x8 (constant (F := Ideal) S_ .f32 0x00000000#32))) w3)
    (broadcastInDim S500x1 ![0, 1] bcast_S1x1_S500x1_0_1 (broadcastInDim S1x1 ![1] bcast_S1_S1x1_1 b3))

/-- The run's result term is the tail of the convolved node features of the arguments. -/
theorem res_eq (m : (ℓ : Loc nD τ sig) → Buf (Elt Ideal) ℓ) (c : Dev nD) :
    Cert.ReferenceIdeal.Value.res_main_v59 (F := Ideal) m c
      = tail (x1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) (m ((c.tc : Thread nD τ).loc main_arg2))
          (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := rfl

end Cert.ReferenceIdeal.RefValue

end
-- ==== Proof.LibRealEntries.lean ====
/-
  Extended reals that are real numbers.

  At exact arithmetic a float is an extended real. Distributing a factor over a difference, or a difference over a sum,
  is sound only where no infinity meets its opposite, so a value proof that rearranges such terms first shows that the
  numbers involved are images of real numbers. The images of the reals are closed under sums, products, differences,
  maxima, choices and finite sums; and on them a weighted sum of differences is the difference of the weighted sums.
-/
import Mathlib.Data.EReal.Operations
import Mathlib.Algebra.BigOperators.Ring.Finset

noncomputable section

namespace RealEntries

/-- An extended real that is the image of a real number. -/
def IsR (x : EReal) : Prop := ∃ r : ℝ, x = (r : EReal)

theorem isR_coe (r : ℝ) : IsR (r : EReal) := ⟨r, rfl⟩
theorem isR_zero : IsR 0 := ⟨0, EReal.coe_zero.symm⟩
theorem isR_one : IsR 1 := ⟨1, EReal.coe_one.symm⟩

theorem IsR.add {x y : EReal} (hx : IsR x) (hy : IsR y) : IsR (x + y) := by
  obtain ⟨a, rfl⟩ := hx; obtain ⟨b, rfl⟩ := hy
  exact ⟨a + b, (EReal.coe_add a b).symm⟩

theorem IsR.mul {x y : EReal} (hx : IsR x) (hy : IsR y) : IsR (x * y) := by
  obtain ⟨a, rfl⟩ := hx; obtain ⟨b, rfl⟩ := hy
  exact ⟨a * b, (EReal.coe_mul a b).symm⟩

theorem IsR.sub {x y : EReal} (hx : IsR x) (hy : IsR y) : IsR (x - y) := by
  obtain ⟨a, rfl⟩ := hx; obtain ⟨b, rfl⟩ := hy
  exact ⟨a - b, (EReal.coe_sub a b).symm⟩

theorem IsR.max {x y : EReal} (hx : IsR x) (hy : IsR y) : IsR (max x y) := by
  obtain ⟨a, rfl⟩ := hx; obtain ⟨b, rfl⟩ := hy
  rcases le_total a b with h | h
  · rw [max_eq_right (EReal.coe_le_coe_iff.mpr h)]; exact ⟨b, rfl⟩
  · rw [max_eq_left (EReal.coe_le_coe_iff.mpr h)]; exact ⟨a, rfl⟩

theorem IsR.ite {p : Prop} [Decidable p] {x y : EReal} (hx : IsR x) (hy : IsR y) : IsR (if p then x else y) := by
  split
  · exact hx
  · exact hy

theorem IsR.sum {ι : Type*} (s : Finset ι) (f : ι → EReal) (h : ∀ i ∈ s, IsR (f i)) : IsR (∑ i ∈ s, f i) := by
  classical
  induction s using Finset.induction_on with
  | empty => rw [Finset.sum_empty]; exact isR_zero
  | insert a s ha ih =>
    rw [Finset.sum_insert ha]
    exact (h a (Finset.mem_insert_self a s)).add (ih fun i hi => h i (Finset.mem_insert_of_mem hi))

/-- A finite sum of images of reals is the image of the sum. -/
theorem coe_sum {ι : Type*} (s : Finset ι) (f : ι → ℝ) : ∑ i ∈ s, ((f i : ℝ) : EReal) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- On real entries, a weighted sum of differences is the difference of the two weighted sums. -/
theorem sum_sub_mul {ι : Type*} [Fintype ι] (a b w : ι → EReal) (ha : ∀ k, IsR (a k)) (hb : ∀ k, IsR (b k))
    (hw : ∀ k, IsR (w k)) : ∑ k, (a k - b k) * w k = ∑ k, a k * w k - ∑ k, b k * w k := by
  choose a' ha' using ha
  choose b' hb' using hb
  choose w' hw' using hw
  simp only [ha', hb', hw', ← EReal.coe_sub, ← EReal.coe_mul, coe_sum]
  rw [← Finset.sum_sub_distrib]
  congr 1
  exact Finset.sum_congr rfl fun k _ => sub_mul _ _ _

end RealEntries

end
-- ==== Proof.LibMeanProject.lean ====
/-
  The algebra that joins the two programs, on the extended reals.

  One program averages the gathered neighbour rows first and multiplies by the weight matrix afterwards; the other
  multiplies every node's row by the weight matrix first, sums the gathered products and scales by the reciprocal of the
  clamped degree. The degree clamped below at 1 is at least 1, so dividing by it is multiplying by a REAL factor in [0, 1]
  (the factor 0 when the degree is +∞). With real rows and real weights both sides are then finite sums of reals, and the
  identity is the interchange of two finite sums.
-/
import Idealize.ShloMosaic.PureOps.Ideal
import proofs.«129108_j33028298506662_2_alg».proof.Proof.LibRealEntries

noncomputable section

namespace LibMeanProject

open Idealize.ShloMosaic RealEntries

/-- Division by an extended real that is at least 1 is multiplication by a real factor. -/
theorem div_ge_one (c : EReal) (hc : 1 ≤ c) : ∃ r : ℝ, ∀ x : EReal, Ideal.div x c = x * (r : EReal) := by
  have hne : c ≠ 0 := ne_of_gt (lt_of_lt_of_le zero_lt_one hc)
  induction c using EReal.rec with
  | bot => exact absurd (lt_of_lt_of_le zero_lt_one hc) not_lt_bot
  | top => exact ⟨0, fun x => by unfold Ideal.div; rw [if_neg hne, EReal.inv_top, EReal.coe_zero]⟩
  | coe y => exact ⟨y⁻¹, fun x => by unfold Ideal.div; rw [if_neg hne, ← EReal.coe_inv]⟩

theorem ite_coe (p : Prop) [Decidable p] (x : ℝ) :
    (if p then ((x : ℝ) : EReal) else 0) = (((if p then x else 0) : ℝ) : EReal) := by
  split
  · rfl
  · exact EReal.coe_zero.symm

/-- MEAN THEN PROJECT = PROJECT, SUM, THEN SCALE. For real rows `a e`, real weights `w`, a selection `δ` of the edges
    and a divisor `c ≥ 1`:  Σ_k ((Σ_{e ∈ δ} a e k) / c) · w k  =  (Σ_{e ∈ δ} Σ_k a e k · w k) · (1 / c). -/
theorem mean_then_project {E K : Type*} [Fintype E] [Fintype K] (δ : E → Prop) [DecidablePred δ]
    (a : E → K → EReal) (w : K → EReal) (c : EReal) (ha : ∀ e k, IsR (a e k)) (hw : ∀ k, IsR (w k)) (hc : 1 ≤ c) :
    ∑ k, Ideal.div (∑ e, if δ e then a e k else 0) c * w k
      = (∑ e, if δ e then ∑ k, a e k * w k else 0) * Ideal.div 1 c := by
  obtain ⟨r, hr⟩ := div_ge_one c hc
  choose a' ha' using ha
  choose w' hw' using hw
  simp only [hr, one_mul, ha', hw', ← EReal.coe_mul, ite_coe, coe_sum]
  refine congrArg _ ?_
  simp only [Finset.sum_mul, ite_mul, zero_mul]
  rw [Finset.sum_comm]
  refine Finset.sum_congr rfl fun e _ => ?_
  by_cases h : δ e
  · simp only [if_pos h]
    exact Finset.sum_congr rfl fun k _ => by ring
  · simp only [if_neg h, Finset.sum_const_zero]

end LibMeanProject

end
-- ==== Proof.LibRowGather.lean ====
/-
  A row gather read at an entry.  For a matrix `x : [N, D]` and a column of start indices `idx : [E, 1]`,
  `x[idx]` (offset axis 1, collapsed axis 0, start index map [0], slices of one whole row) has at entry (e, j)
  the matrix entry (r, j), where the row r is the e-th start index read as a signed integer and clamped into
  [0, N - 1].  The column j is untouched, so a gather of rows commutes with anything that acts column by column.
-/
import Idealize.ShloMosaic.Lib.ValueIdx

noncomputable section

namespace LibRowGather

open Idealize.ShloMosaic Idealize.ShloMosaic.ValueIdx

/-- The dimension numbers of a gather of whole rows: operand `[N, D]`, start indices `[E, 1]`, result `[E, D]`. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a start index selects: the word read signed, clamped into `[0, N - 1]`. -/
def clampRow (N : Nat) (hN : 0 < N) {w : Nat} (v : BitVec w) : Fin N := ⟨min v.toInt.toNat (N - 1), by omega⟩

/-- THE ROW GATHER AT `(e, j)`: the operand's entry at the clamped row `idx[e, 0]` and the same column `j`. -/
theorem gather_rows_apply {α : Type} {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowDims N D E wf) x idx (ix2 e j)
      = x (ix2 (clampRow N hN (idx (ix2 e (0 : Fin 1)))) j) := by
  unfold Host.gather
  refine congrArg x (funext fun a => Fin.ext ?_)
  match a with
  | ⟨0, _⟩ =>
    show (rowDims N D E wf).start (ix2 e j) idx 0 + (rowDims N D E wf).batchCoord (ix2 e j) 0
      + (rowDims N D E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D E wf).startIndexMap from List.mem_singleton.mpr rfl)]
    have hsi : (rowDims N D E wf).siIdx (ix2 e j) ⟨List.idxOf (0 : Fin 2) (rowDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N D E wf).start (ix2 e j) idx 1 + (rowDims N D E wf).batchCoord (ix2 e j) 1
      + (rowDims N D E wf).offCoord (ix2 e j) 1 = j.val
    rw [GatherDims.batchCoord_eq_zero _ _ _ List.not_mem_nil]
    unfold GatherDims.start
    rw [dif_neg (show ¬ (1 : Fin 2) ∈ (rowDims N D E wf).startIndexMap by
      show ¬ (1 : Fin 2) ∈ ([0] : List (Fin 2)); decide)]
    simp only [Nat.add_zero, Nat.zero_add]
    unfold GatherDims.offCoord
    rw [dif_pos ((GatherDims.mem_sKept _ _).mpr ⟨by show ¬ (1 : Fin 2) ∈ ([0] : List (Fin 2)); decide, List.not_mem_nil⟩)]
    rfl

end LibRowGather

end
-- ==== Proof.LibRowScatter.lean ====
/-
  An accumulating scatter of whole rows, read at an entry.

  Update rows upd : [E, D] are summed into the rows of a matrix x : [N, D] that an integer column idx : [E, 1]
  names (a segment sum of rows).  Entry (e, d) of the updates lands on entry (i, j) of the result exactly when
  the e-th index, read as a signed integer and NOT clamped, equals i, and d = j; an index outside [0, N) lands
  nowhere.  Hence, at exact arithmetic, entry (i, j) of the scattered sum is the operand's entry plus the sum
  over all e of "upd (e, j) if the e-th index equals i, else 0".
-/
import Idealize.ShloMosaic.Lib.ValueIdx
import Idealize.ShloMosaic.PureOps.Ideal.Laws

noncomputable section

open scoped BigOperators

namespace LibRowScatter

open Idealize.ShloMosaic Idealize.ShloMosaic.ValueIdx

/-- The dimension numbers of a segment sum of rows into a matrix `[N, D]`: updates `[E, D]`, index column `[E, 1]`. -/
abbrev addRowsDims (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Update entry `(e, d)` lands on entry `(i, j)` exactly when the `e`-th index, read signed, is `i` and `d = j`. -/
theorem resultIdx?_rows_iff {N D E w : Nat} (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx) :
    (addRowsDims N D E wf).resultIdx? j idx = some i
      ↔ (idx (ix2 (j 0) (0 : Fin 1))).toInt = ((i 0).val : ℤ) ∧ (j 1).val = (i 1).val := by
  have hi0 : (i 0).val < N := idx2_lt0 i
  have hi1 : (i 1).val < D := idx2_lt1 i
  have hj1 : (j 1).val < D := idx2_lt1 j
  have hstart0 : (addRowsDims N D E wf).start j idx 0 = (idx (ix2 (j 0) (0 : Fin 1))).toInt := by
    unfold ScatterDims.start
    rw [dif_pos (show (0 : Fin 2) ∈ (addRowsDims N D E wf).scatterDimsToOperandDims from List.mem_singleton.mpr rfl)]
    have hsi : (addRowsDims N D E wf).siIdx j ⟨List.idxOf (0 : Fin 2) (addRowsDims N D E wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  have hwin0 : (addRowsDims N D E wf).window j 0 = 0 := by
    unfold ScatterDims.window
    rw [dif_neg (by simp [ScatterDims.sKept, Shape.kept])]
  have hstart1 : (addRowsDims N D E wf).start j idx 1 = 0 := by
    unfold ScatterDims.start
    rw [dif_neg (by simp [ScatterDims.sKept, Shape.kept])]
  have hwin1 : (addRowsDims N D E wf).window j 1 = (j 1).val := by
    unfold ScatterDims.window
    rw [dif_pos (by simp [ScatterDims.sKept, Shape.kept])]
    rfl
  unfold ScatterDims.resultIdx?
  split
  · rename_i h
    rw [Option.some_inj]
    constructor
    · intro he
      have h0 := congrArg (fun f => (f 0).val) he
      have h1 := congrArg (fun f => (f 1).val) he
      have hh := h 0
      simp only [hstart0, hwin0] at h0 hh
      simp only [hstart1, hwin1] at h1
      constructor
      · omega
      · omega
    · rintro ⟨he, hd⟩
      funext a
      refine Fin.ext ?_
      match a with
      | ⟨0, _⟩ =>
        show ((addRowsDims N D E wf).start j idx 0 + ((addRowsDims N D E wf).window j 0 : ℕ)).toNat = (i 0).val
        rw [hstart0, hwin0]
        omega
      | ⟨1, _⟩ =>
        show ((addRowsDims N D E wf).start j idx 1 + ((addRowsDims N D E wf).window j 1 : ℕ)).toNat = (i 1).val
        rw [hstart1, hwin1]
        omega
  · rename_i h
    constructor
    · intro he; exact absurd he (by simp)
    · rintro ⟨he, hd⟩
      exfalso
      apply h
      intro a
      match a with
      | ⟨0, _⟩ =>
        show 0 ≤ (addRowsDims N D E wf).start j idx 0 + ((addRowsDims N D E wf).window j 0 : ℕ)
          ∧ (addRowsDims N D E wf).start j idx 0 + ((addRowsDims N D E wf).window j 0 : ℕ) < (N : ℤ)
        rw [hstart0, hwin0]
        omega
      | ⟨1, _⟩ =>
        show 0 ≤ (addRowsDims N D E wf).start j idx 1 + ((addRowsDims N D E wf).window j 1 : ℕ)
          ∧ (addRowsDims N D E wf).start j idx 1 + ((addRowsDims N D E wf).window j 1 : ℕ) < ((D : ℕ) : ℤ)
        rw [hstart1, hwin1]
        omega

/-- At exact arithmetic, entry `(i, j)` of the segment sum of rows is the operand's entry plus the sum over all
    `e` of "update entry `(e, j)` if the `e`-th index is `i`, else 0". -/
theorem scatterAdd_rows_apply {N D E w : Nat} {φ : FTy}
    (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ)
    (i : Fin N) (j : Fin D) :
    Host.scatterAdd (addRowsDims N D E wf) x idx upd (ix2 i j)
      = x (ix2 i j) + ∑ e : Fin E, if (idx (ix2 e (0 : Fin 1))).toInt = ((i : ℕ) : ℤ) then upd (ix2 e j) else 0 := by
  show Ideal.hostScatterAdd (addRowsDims N D E wf) x idx upd (ix2 i j) = _
  unfold Ideal.hostScatterAdd
  congr 1
  rw [Finset.sum_filter, sum_idx2]
  refine Finset.sum_congr rfl (fun e _ => ?_)
  have hcond : ∀ d : Fin D, ((addRowsDims N D E wf).resultIdx? (ix2 e d) idx = some (ix2 i j))
      ↔ ((idx (ix2 e (0 : Fin 1))).toInt = ((i : ℕ) : ℤ) ∧ d = j) := by
    intro d
    rw [resultIdx?_rows_iff wf idx (ix2 e d) (ix2 i j)]
    exact and_congr Iff.rfl ⟨fun h => Fin.ext h, fun h => congrArg Fin.val h⟩
  by_cases hP : (idx (ix2 e (0 : Fin 1))).toInt = ((i : ℕ) : ℤ)
  · rw [if_pos hP]
    rw [Finset.sum_congr rfl (fun d _ => if_congr ((hcond d).trans (and_iff_right hP)) rfl rfl)]
    rw [Finset.sum_ite_eq' Finset.univ j (fun d => upd (ix2 e d))]
    simp
  · rw [if_neg hP]
    refine Finset.sum_eq_zero (fun d _ => ?_)
    rw [if_neg]
    intro h
    exact hP ((hcond d).mp h).1

end LibRowScatter

end
-- ==== Proof.LibMeanForms.lean ====
/-
  The neighbourhood mean, written two ways.

  One program scales the neighbour sum by the reciprocal of the clamped degree, A[r,c] · (1 / max(g[r], 1)); the other
  divides by it, A[r,c] / max(g[r], 1). On the extended reals the quotient x / y is x · y⁻¹ whenever y ≠ 0, and
  max(g, 1) ≥ 1 is never zero, whatever g is (an infinity included). So both are A[r,c] · (max(g[r], 1))⁻¹, with no
  finiteness assumed of A or g. The degree enters through a vector repeated along the rows of the matrix:
  a [n] vector laid out as [n, 1] and broadcast to [n, c] has entry (r, c) equal to the vector's entry r.
-/
import Idealize.ShloMosaic.PureOps.Ideal.Laws
import Idealize.ShloMosaic.PureOps.IdealRules
import Idealize.ShloMosaic.Lib.Pipeline.Value
import Idealize.ShloMosaic.Lib.ValueIdx

noncomputable section

namespace LibMeanForms

open Idealize.ShloMosaic Idealize.ShloMosaic.ValueIdx

/-- The single-precision word 0x3F800000 denotes the real number 1. -/
theorem one_f32 : Ideal.ofBits .f32 0x3F800000#32 = 1 := IdealRules.sign_bit.ideal_onePat .f32

/-- On the extended reals, n · (1 / max(g, 1)) = n / max(g, 1): the divisor is at least 1, hence not zero, and a
    quotient by a nonzero divisor is the product with its inverse. -/
theorem mean_scalar (n g : EReal) : n * Ideal.div 1 (max g 1) = Ideal.div n (max g 1) := by
  have hpos : (0 : EReal) < max g 1 := lt_of_lt_of_le zero_lt_one (le_max_right g 1)
  have hne : max g 1 ≠ 0 := ne_of_gt hpos
  unfold Ideal.div
  rw [if_neg hne, if_neg hne, one_mul]

/-- An [n] vector laid out as a column [n, 1] and repeated across [n, c], at any entry: the vector at the entry's row. -/
theorem rows_apply {α : Type} {n c : ℕ} (hn : n ≠ 1)
    (h1 : (⟨1, ![n]⟩ : Shape).BroadcastsInDim ⟨2, ![n, 1]⟩ ![0]) (h2 : (⟨2, ![n, 1]⟩ : Shape).BroadcastsInDim ⟨2, ![n, c]⟩ ![0, 1])
    (y : (⟨1, ![n]⟩ : Shape).Idx → α) (i : (⟨2, ![n, c]⟩ : Shape).Idx) :
    broadcastInDim ⟨2, ![n, c]⟩ ![0, 1] h2 (broadcastInDim ⟨2, ![n, 1]⟩ ![0] h1 y) i = y (ix1 (n := n) (i 0)) := by
  refine (broadcastInDim_apply ![0, 1] h2 _ i (ix2 (n0 := n) (n1 := 1) (i 0) (0 : Fin 1)) (fun a => ?_)).trans
    (broadcastInDim_apply ![0] h1 y _ (ix1 (n := n) (i 0)) (fun a => ?_))
  · match a with
    | ⟨0, _⟩ => show (i 0).val = if n = 1 then 0 else (i 0).val; rw [if_neg hn]
    | ⟨1, _⟩ => show (0 : ℕ) = if (1 : ℕ) = 1 then 0 else (i 1).val; rw [if_pos rfl]
  · match a with
    | ⟨0, _⟩ => show (i 0).val = if n = 1 then 0 else (i 0).val; rw [if_neg hn]

/-- The two forms of the mean agree as whole arrays: A · rows(1 / max(g, 1)) = A / rows(max(g, 1)), where 1 is the
    single-precision word for one, splat over the vector. -/
theorem mean_forms {n c : ℕ} (hn : n ≠ 1)
    (h0 : (⟨0, ![]⟩ : Shape).BroadcastsInDim ⟨1, ![n]⟩ ![])
    (h1 : (⟨1, ![n]⟩ : Shape).BroadcastsInDim ⟨2, ![n, 1]⟩ ![0]) (h2 : (⟨2, ![n, 1]⟩ : Shape).BroadcastsInDim ⟨2, ![n, c]⟩ ![0, 1])
    (A : FVec Ideal ⟨2, ![n, c]⟩ .f32) (g : FVec Ideal ⟨1, ![n]⟩ .f32) :
    mulf A (broadcastInDim ⟨2, ![n, c]⟩ ![0, 1] h2 (broadcastInDim ⟨2, ![n, 1]⟩ ![0] h1
        (Host.divf (broadcastInDim ⟨1, ![n]⟩ ![] h0 (constant (F := Ideal) ⟨0, ![]⟩ .f32 0x3F800000#32))
          (maximumf g (broadcastInDim ⟨1, ![n]⟩ ![] h0 (constant (F := Ideal) ⟨0, ![]⟩ .f32 0x3F800000#32))))))
      = Host.divf A (broadcastInDim ⟨2, ![n, c]⟩ ![0, 1] h2 (broadcastInDim ⟨2, ![n, 1]⟩ ![0] h1
          (maximumf g (broadcastInDim ⟨1, ![n]⟩ ![] h0 (constant (F := Ideal) ⟨0, ![]⟩ .f32 0x3F800000#32))))) := by
  funext i
  show A i * _ = Ideal.div (A i) _
  rw [rows_apply hn h1 h2, rows_apply hn h1 h2]
  show A i * Ideal.div (Ideal.ofBits .f32 0x3F800000#32) (max (g (ix1 (i 0))) (Ideal.ofBits .f32 0x3F800000#32))
    = Ideal.div (A i) (max (g (ix1 (i 0))) (Ideal.ofBits .f32 0x3F800000#32))
  rw [one_f32]
  exact mean_scalar _ _

end LibMeanForms

end
-- ==== Proof.BridgeX1.lean ====
/-
  The convolved node features are the same array in both programs, when the node features and the first weight
  matrix have real entries.

  Entry (n, j) in the kernel: the rows of X·Wl gathered along the source nodes of the edges into n, summed, scaled by
  1 / max(deg n, 1), plus (X·Wr)[n,j], plus bl[j]. In the reference: the rows of X gathered and summed the same way,
  divided by max(deg n, 1), times Wl, plus bl[j], plus (X·Wr)[n,j]. Both programs clamp a source index into the node
  range in the same way and drop an edge whose target is outside it in the same way, so the two read the same rows over
  the same edges, and the two arrangements agree by the interchange of the sums over edges and over features.
-/
import proofs.«129108_j33028298506662_2_alg».proof.Proof.KernelValue
import proofs.«129108_j33028298506662_2_alg».proof.Proof.RefValue
import proofs.«129108_j33028298506662_2_alg».proof.Proof.LibMeanProject
import proofs.«129108_j33028298506662_2_alg».proof.Proof.LibDenseLayer
import proofs.«129108_j33028298506662_2_alg».proof.Proof.LibRowGather
import proofs.«129108_j33028298506662_2_alg».proof.Proof.LibRowScatter
import proofs.«129108_j33028298506662_2_alg».proof.Proof.LibMeanForms
import proofs.«129108_j33028298506662_2_alg».proof.Proof.LibRowOps

set_option maxRecDepth 16384

noncomputable section

namespace SageBridge

open Idealize.ShloMosaic Idealize.ShloMosaic.ValueIdx RealEntries
open Cert.KernelIdeal.KValue

variable (x : FVec Ideal ⟨2, ![50000, 128]⟩ .f32) (ei : IVec ⟨2, ![2, 600000]⟩ 32)
  (wl wr : FVec Ideal ⟨2, ![128, 64]⟩ .f32) (bl : FVec Ideal ⟨1, ![64]⟩ .f32)

/-- Both programs build the same index columns and count the same degrees. -/
theorem srcCol_eq : srcCol ei = Cert.ReferenceIdeal.RefValue.srcCol ei := rfl
theorem dstCol_eq : dstCol ei = Cert.ReferenceIdeal.RefValue.dstCol ei := rfl
theorem deg_eq : deg ei = Cert.ReferenceIdeal.RefValue.deg ei := rfl

/-- The node whose row edge `e` reads: its source index, clamped into the node range. -/
def row (e : Fin 600000) : Fin 50000 :=
  LibRowGather.clampRow 50000 (by decide) (srcCol ei (ix2 (n0 := 600000) (n1 := 1) e (0 : Fin 1)))
/-- Edge `e` lands on node `n`: its target index is `n`. -/
def hits (n : Fin 50000) (e : Fin 600000) : Prop :=
  (dstCol ei (ix2 (n0 := 600000) (n1 := 1) e (0 : Fin 1))).toInt = ((n : ℕ) : ℤ)
instance (n : Fin 50000) : DecidablePred (hits ei n) := fun e => by unfold hits; infer_instance

theorem zero_splat {s : Shape} (h : (⟨0, ![]⟩ : Shape).BroadcastsInDim s ![]) (i : s.Idx) :
    (broadcastInDim s ![] h (constant (F := Ideal) ⟨0, ![]⟩ .f32 0x00000000#32) : FVec Ideal s .f32) i = 0 :=
  (broadcastInDim_apply ![] h _ i ix0 (fun a => a.elim0)).trans Ideal.ofBits_zero_f32
theorem one_splat {s : Shape} (h : (⟨0, ![]⟩ : Shape).BroadcastsInDim s ![]) (i : s.Idx) :
    (broadcastInDim s ![] h (constant (F := Ideal) ⟨0, ![]⟩ .f32 0x3F800000#32) : FVec Ideal s .f32) i = 1 :=
  (broadcastInDim_apply ![] h _ i ix0 (fun a => a.elim0)).trans LibMeanForms.one_f32

/-- A host quotient of two arrays, at an entry. -/
theorem hostDivf_apply {s : Shape} (a b : FVec Ideal s .f32) (i : s.Idx) : Host.divf a b i = Ideal.div (a i) (b i) := rfl

/-- A vector of length a cast into the [a, 1] column, read at (p, 0): the vector at p. -/
theorem shapeCast_col_apply {α : Type} {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h _ _ ?_
  rw [Shape.rowMajor_val_one, Shape.rowMajor_val_two]
  show p.val = p.val * 1 + z.val
  have := z.isLt
  omega

/-- The kernel's neighbour sum at an entry. -/
theorem k_agg_entry (n : Fin 50000) (j : Fin 64) :
    agg x wl ei (ix2 n j)
      = ∑ e : Fin 600000, if hits ei n e then ∑ k : Fin 128, x (ix2 (row ei e) k) * wl (ix2 k j) else 0 := by
  unfold agg
  refine (LibRowScatter.scatterAdd_rows_apply (N := 50000) (D := 64) (E := 600000)
    Cert.KernelIdeal.Facts₀.scatter_S50000x64_S600000x1_S600000x64_1_0_0_1_wf _ (dstCol ei) _ n j).trans ?_
  rw [zero_splat, zero_add]
  refine Finset.sum_congr rfl fun e _ => if_congr Iff.rfl ?_ rfl
  exact LibRowGather.gather_rows_apply (N := 50000) (D := 64) (E := 600000) (by decide)
    Cert.KernelIdeal.Facts₀.gather_S50000x64_S600000x1_S600000x64_1_0_n_n_0_1_164_wf (Cert.KernelIdeal.Region0.proj x wl) (srcCol ei) e j

/-- The kernel's convolved features at an entry. -/
theorem k_x1_entry (n : Fin 50000) (j : Fin 64) :
    x1 x ei wl bl wr (ix2 n j)
      = (∑ e : Fin 600000, if hits ei n e then ∑ k : Fin 128, x (ix2 (row ei e) k) * wl (ix2 k j) else 0)
          * Ideal.div 1 (max (deg ei (ix1 n)) 1)
        + (∑ k : Fin 128, x (ix2 n k) * wr (ix2 k j)) + bl (ix1 j) := by
  unfold x1 Cert.KernelIdeal.Region1.comb
  show agg x wl ei (ix2 n j) * Ideal.div Cert.KernelIdeal.Region1.one
      (max (shapeCast ⟨2, ![50000, 1]⟩ (deg ei) Cert.KernelIdeal.Facts₀.shapeCasts_S50000_S50000x1 (ix2 n (0 : Fin 1))) Cert.KernelIdeal.Region1.one)
      + Cert.KernelIdeal.Region0.proj x wr (ix2 n j)
      + shapeCast ⟨2, ![1, 64]⟩ bl Cert.KernelIdeal.Facts₀.shapeCasts_S64_S1x64 (ix2 (0 : Fin 1) j) = _
  rw [k_agg_entry, shapeCast_col_apply, LibRowOps.shapeCast_row_apply, show Cert.KernelIdeal.Region1.one = 1 from LibMeanForms.one_f32]
  rfl

/-- The reference's neighbour sum at an entry. -/
theorem r_nbr_entry (n : Fin 50000) (k : Fin 128) :
    Cert.ReferenceIdeal.RefValue.nbrSum x ei (ix2 n k) = ∑ e : Fin 600000, if hits ei n e then x (ix2 (row ei e) k) else 0 := by
  unfold Cert.ReferenceIdeal.RefValue.nbrSum
  refine (LibRowScatter.scatterAdd_rows_apply (N := 50000) (D := 128) (E := 600000)
    Cert.ReferenceIdeal.Facts₀.scatter_S50000x128_S600000x1_S600000x128_1_0_0_1_wf _ (Cert.ReferenceIdeal.RefValue.dstCol ei) _ n k).trans ?_
  rw [zero_splat, zero_add]
  refine Finset.sum_congr rfl fun e _ => if_congr Iff.rfl ?_ rfl
  exact LibRowGather.gather_rows_apply (N := 50000) (D := 128) (E := 600000) (by decide)
    Cert.ReferenceIdeal.Facts₀.gather_S50000x128_S600000x1_S600000x128_1_0_n_n_0_1_1128_wf x (Cert.ReferenceIdeal.RefValue.srcCol ei) e k

/-- The reference's neighbourhood mean at an entry. -/
theorem r_mean_entry (n : Fin 50000) (k : Fin 128) :
    Cert.ReferenceIdeal.RefValue.meanNbr x ei (ix2 n k)
      = Ideal.div (∑ e : Fin 600000, if hits ei n e then x (ix2 (row ei e) k) else 0)
          (max (Cert.ReferenceIdeal.RefValue.deg ei (ix1 n)) 1) := by
  unfold Cert.ReferenceIdeal.RefValue.meanNbr
  rw [hostDivf_apply, r_nbr_entry, LibMeanForms.rows_apply (n := 50000) (c := 128) (by decide), maximumf_apply, one_splat]

/-- The reference's convolved features at an entry. -/
theorem r_x1_entry (n : Fin 50000) (j : Fin 64) :
    Cert.ReferenceIdeal.RefValue.x1 x ei wl bl wr (ix2 n j)
      = (∑ k : Fin 128, Ideal.div (∑ e : Fin 600000, if hits ei n e then x (ix2 (row ei e) k) else 0)
            (max (Cert.ReferenceIdeal.RefValue.deg ei (ix1 n)) 1) * wl (ix2 k j) + bl (ix1 j))
        + ∑ k : Fin 128, x (ix2 n k) * wr (ix2 k j) := by
  unfold Cert.ReferenceIdeal.RefValue.x1
  show (Host.dotGeneral (F := Ideal) (LibDenseLayer.mmDims 50000 128 64 Cert.ReferenceIdeal.Facts₀.dot_S50000x128_S128x64_S50000x64_1_0_0_1_n_n_wf) none
        (Cert.ReferenceIdeal.RefValue.meanNbr x ei) wl (ix2 n j)
      + broadcastInDim ⟨2, ![50000, 64]⟩ ![0, 1] Cert.ReferenceIdeal.Facts₀.bcast_S1x64_S50000x64_0_1
          (broadcastInDim ⟨2, ![1, 64]⟩ ![1] Cert.ReferenceIdeal.Facts₀.bcast_S64_S1x64_1 bl) (ix2 n j))
      + Host.dotGeneral (F := Ideal) (LibDenseLayer.mmDims 50000 128 64 Cert.ReferenceIdeal.Facts₀.dot_S50000x128_S128x64_S50000x64_1_0_0_1_n_n_wf) none
        x wr (ix2 n j) = _
  rw [LibDenseLayer.host_apply, LibDenseLayer.host_apply, LibDenseLayer.bias_host_apply]
  simp only [r_mean_entry]

/-- THE CONVOLVED FEATURES AGREE. -/
theorem x1_eq (hx : ∀ i, IsR (x i)) (hwl : ∀ i, IsR (wl i)) :
    x1 x ei wl bl wr = Cert.ReferenceIdeal.RefValue.x1 x ei wl bl wr := by
  funext i
  obtain ⟨n, j, rfl⟩ : ∃ (n : Fin 50000) (j : Fin 64), i = ix2 n j := ⟨i 0, i 1, eq_ix2 i⟩
  rw [k_x1_entry, r_x1_entry, ← deg_eq]
  have hc : (1 : EReal) ≤ max (deg ei (ix1 n)) 1 := le_max_right _ _
  rw [LibMeanProject.mean_then_project (hits ei n) (fun e k => x (ix2 (row ei e) k)) (fun k => wl (ix2 k j)) _
    (fun e k => hx _) (fun k => hwl _) hc]
  exact add_right_comm _ _ _

end SageBridge

end
-- ==== Proof.BridgeTail.lean ====
/-
  From the convolved node features to the result, the two programs agree, whatever the entries are.

  Both pool the features over the graph ids with the same segment sum and count the graphs' nodes with the same one. The
  kernel scales the pooled sums by 1 / max(size, 1), the reference divides by max(size, 1): one array, the divisor never
  being zero. Each dense layer is a matrix product (the TensorCore's, with operands narrowed to bf16, or the host's:
  one array at exact arithmetic) plus a bias row repeated down the rows (laid out by a cast and a broadcast, or by two
  broadcasts: one array), and the clamp below at zero is the same maximum. No finiteness is used.
-/
import proofs.«129108_j33028298506662_2_alg».proof.Proof.BridgeX1

set_option maxRecDepth 16384

noncomputable section

namespace SageBridge

open Idealize.ShloMosaic Idealize.ShloMosaic.ValueIdx
open Cert.KernelIdeal.KValue

/-- A dense layer in the kernel's spelling. -/
def layerK (M K N : ℕ) (wf : DotDims.WF ⟨2, ![M, K]⟩ ⟨2, ![K, N]⟩ ⟨2, ![M, N]⟩ [1] [0] [0] [1] [] [])
    (h : FVec Ideal ⟨2, ![M, K]⟩ .f32) (W : FVec Ideal ⟨2, ![K, N]⟩ .f32) (b : FVec Ideal ⟨1, ![N]⟩ .f32)
    (hc : (⟨1, ![N]⟩ : Shape).ShapeCasts ⟨2, ![1, N]⟩) (hs : (⟨2, ![1, N]⟩ : Shape).ShapeCasts ⟨2, ![1, N]⟩)
    (hb : (⟨2, ![1, N]⟩ : Shape).Broadcasts ⟨2, ![M, N]⟩) (hbits : FTy.bits .bf16 < FTy.bits .f32) :
    FVec Ideal ⟨2, ![M, N]⟩ .f32 :=
  addf (FloatOps.matmul (F := Ideal) (LibDenseLayer.mmDims M K N wf) none (truncf .bf16 h hbits) (truncf .bf16 W hbits)
      (constant ⟨2, ![M, N]⟩ .f32 0x00000000#32))
    (broadcastTo ⟨2, ![M, N]⟩ (shapeCast ⟨2, ![1, N]⟩ (shapeCast ⟨2, ![1, N]⟩ b hc) hs) hb)

/-- The same layer in the reference's spelling. -/
def layerR (M K N : ℕ) (wf : DotDims.WF ⟨2, ![M, K]⟩ ⟨2, ![K, N]⟩ ⟨2, ![M, N]⟩ [1] [0] [0] [1] [] [])
    (h : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) : FVec Ideal ⟨2, ![M, N]⟩ .f32 :=
  addf (Host.dotGeneral (F := Ideal) (LibDenseLayer.mmDims M K N wf) none h W)
    (broadcastInDim ⟨2, ![M, N]⟩ ![0, 1] h2 (broadcastInDim ⟨2, ![1, N]⟩ ![1] h1 b))

theorem layer_eq (M K N : ℕ) (wf wf' : DotDims.WF ⟨2, ![M, K]⟩ ⟨2, ![K, N]⟩ ⟨2, ![M, N]⟩ [1] [0] [0] [1] [] [])
    (h : FVec Ideal ⟨2, ![M, K]⟩ .f32) (W : FVec Ideal ⟨2, ![K, N]⟩ .f32) (b : FVec Ideal ⟨1, ![N]⟩ .f32)
    (hc : (⟨1, ![N]⟩ : Shape).ShapeCasts ⟨2, ![1, N]⟩) (hs : (⟨2, ![1, N]⟩ : Shape).ShapeCasts ⟨2, ![1, N]⟩)
    (hb : (⟨2, ![1, N]⟩ : Shape).Broadcasts ⟨2, ![M, N]⟩) (hbits : FTy.bits .bf16 < FTy.bits .f32)
    (h1 : (⟨1, ![N]⟩ : Shape).BroadcastsInDim ⟨2, ![1, N]⟩ ![1])
    (h2 : (⟨2, ![1, N]⟩ : Shape).BroadcastsInDim ⟨2, ![M, N]⟩ ![0, 1]) :
    layerK M K N wf h W b hc hs hb hbits = layerR M K N wf' h W b h1 h2 := by
  unfold layerK layerR
  rw [LibDenseLayer.tc_eq_host wf wf' h W hbits, LibDenseLayer.bias_eq hc hs hb h1 h2 b]

/-- The clamp below at zero, in the kernel's spelling … -/
def reluK {s : Shape} (a : FVec Ideal s .f32) : FVec Ideal s .f32 :=
  maximumf a (broadcast s (Scalar.ofBits (F := Ideal) .f32 0x00000000#32))
/-- … and in the reference's. -/
def reluR {s : Shape} (h0 : (⟨0, ![]⟩ : Shape).BroadcastsInDim s ![]) (a : FVec Ideal s .f32) : FVec Ideal s .f32 :=
  maximumf a (broadcastInDim s ![] h0 (constant (F := Ideal) ⟨0, ![]⟩ .f32 0x00000000#32))
theorem relu_eq {s : Shape} (h0 : (⟨0, ![]⟩ : Shape).BroadcastsInDim s ![]) (a : FVec Ideal s .f32) : reluK a = reluR h0 a := by
  unfold reluK reluR
  rw [LibDenseLayer.splat_eq h0]

variable (f : FVec Ideal ⟨2, ![50000, 64]⟩ .f32) (b : IVec ⟨1, ![50000]⟩ 32)

/-- The kernel's pooled mean: the pooled sums times the reciprocal of the clamped graph sizes. -/
def poolK : FVec Ideal ⟨2, ![500, 64]⟩ .f32 :=
  mulf (shapeCast ⟨2, ![500, 64]⟩ (gsum b f) Cert.KernelIdeal.Facts₀.shapeCasts_S500x64_S500x64)
    (broadcastTo ⟨2, ![500, 64]⟩ (divf (broadcast ⟨2, ![500, 1]⟩ (Scalar.ofBits (F := Ideal) .f32 0x3F800000#32))
      (maximumf (shapeCast ⟨2, ![500, 1]⟩ (gcnt b) Cert.KernelIdeal.Facts₀.shapeCasts_S500x1_S500x1)
        (broadcast ⟨2, ![500, 1]⟩ (Scalar.ofBits (F := Ideal) .f32 0x3F800000#32)))) Cert.KernelIdeal.Facts₀.broadcasts_S500x1_S500x64)

/-- The two pooled means are one array. -/
theorem pool_eq : poolK f b = Cert.ReferenceIdeal.RefValue.pooled f b := by
  funext i
  obtain ⟨g, j, rfl⟩ : ∃ (g : Fin 500) (j : Fin 64), i = ix2 g j := ⟨i 0, i 1, eq_ix2 i⟩
  unfold poolK Cert.ReferenceIdeal.RefValue.pooled
  simp only [shapeCast_self]
  rw [mulf_apply, hostDivf_apply, LibColRow.broadcastTo_col_apply (a := 500) (b := 64) _ _ (by decide) g j,
    LibMeanForms.rows_apply (n := 500) (c := 64) (by decide), divf_apply, maximumf_apply, maximumf_apply,
    broadcast_apply, one_splat]
  unfold gcnt
  rw [shapeCast_col_apply]
  simp only [Ideal.ofBits_def, LibMeanForms.one_f32]
  exact LibMeanForms.mean_scalar _ _

variable (w0 : FVec Ideal ⟨2, ![64, 32]⟩ .f32) (b0 : FVec Ideal ⟨1, ![32]⟩ .f32) (w1 : FVec Ideal ⟨2, ![32, 16]⟩ .f32)
  (b1 : FVec Ideal ⟨1, ![16]⟩ .f32) (w2 : FVec Ideal ⟨2, ![16, 8]⟩ .f32) (b2 : FVec Ideal ⟨1, ![8]⟩ .f32)
  (w3 : FVec Ideal ⟨2, ![8, 1]⟩ .f32) (b3 : FVec Ideal ⟨1, ![1]⟩ .f32)

/-- The kernel's tail is the chain of its layers … -/
theorem k_tail_chain : tail f b w0 b0 w1 b1 w2 b2 w3 b3
    = (layerK 500 8 1 Cert.KernelIdeal.Facts₀.dot_S500x8_S8x1_S500x1_1_0_0_1_n_n_wf (reluK (layerK 500 16 8 Cert.KernelIdeal.Facts₀.dot_S500x16_S16x8_S500x8_1_0_0_1_n_n_wf (reluK (layerK 500 32 16 Cert.KernelIdeal.Facts₀.dot_S500x32_S32x16_S500x16_1_0_0_1_n_n_wf (reluK (layerK 500 64 32 Cert.KernelIdeal.Facts₀.dot_S500x64_S64x32_S500x32_1_0_0_1_n_n_wf (poolK f b) w0 b0 Cert.KernelIdeal.Facts₀.shapeCasts_S32_S1x32 Cert.KernelIdeal.Facts₀.shapeCasts_S1x32_S1x32 Cert.KernelIdeal.Facts₀.broadcasts_S1x32_S500x32 Cert.KernelIdeal.Facts₀.bitsLt_bf16_f32)) w1 b1 Cert.KernelIdeal.Facts₀.shapeCasts_S16_S1x16 Cert.KernelIdeal.Facts₀.shapeCasts_S1x16_S1x16 Cert.KernelIdeal.Facts₀.broadcasts_S1x16_S500x16 Cert.KernelIdeal.Facts₀.bitsLt_bf16_f32)) w2 b2 Cert.KernelIdeal.Facts₀.shapeCasts_S8_S1x8 Cert.KernelIdeal.Facts₀.shapeCasts_S1x8_S1x8 Cert.KernelIdeal.Facts₀.broadcasts_S1x8_S500x8 Cert.KernelIdeal.Facts₀.bitsLt_bf16_f32)) w3 b3 Cert.KernelIdeal.Facts₀.shapeCasts_S1_S1x1 Cert.KernelIdeal.Facts₀.shapeCasts_S1x1_S1x1 Cert.KernelIdeal.Facts₀.broadcasts_S1x1_S500x1 Cert.KernelIdeal.Facts₀.bitsLt_bf16_f32) := by
  unfold tail Cert.KernelIdeal.Region2.mlp Cert.KernelIdeal.Gen.k2_pay1 Cert.KernelIdeal.Gen.k2_pay2 Cert.KernelIdeal.Gen.k2_pay3 layerK reluK poolK
  rfl

/-- … and the reference's is the chain of its own. -/
theorem r_tail_chain : Cert.ReferenceIdeal.RefValue.tail f b w0 b0 w1 b1 w2 b2 w3 b3
    = (layerR 500 8 1 Cert.ReferenceIdeal.Facts₀.dot_S500x8_S8x1_S500x1_1_0_0_1_n_n_wf (reluR Cert.ReferenceIdeal.Facts₀.bcast_S_S500x8 (layerR 500 16 8 Cert.ReferenceIdeal.Facts₀.dot_S500x16_S16x8_S500x8_1_0_0_1_n_n_wf (reluR Cert.ReferenceIdeal.Facts₀.bcast_S_S500x16 (layerR 500 32 16 Cert.ReferenceIdeal.Facts₀.dot_S500x32_S32x16_S500x16_1_0_0_1_n_n_wf (reluR Cert.ReferenceIdeal.Facts₀.bcast_S_S500x32 (layerR 500 64 32 Cert.ReferenceIdeal.Facts₀.dot_S500x64_S64x32_S500x32_1_0_0_1_n_n_wf (Cert.ReferenceIdeal.RefValue.pooled f b) w0 b0 Cert.ReferenceIdeal.Facts₀.bcast_S32_S1x32_1 Cert.ReferenceIdeal.Facts₀.bcast_S1x32_S500x32_0_1)) w1 b1 Cert.ReferenceIdeal.Facts₀.bcast_S16_S1x16_1 Cert.ReferenceIdeal.Facts₀.bcast_S1x16_S500x16_0_1)) w2 b2 Cert.ReferenceIdeal.Facts₀.bcast_S8_S1x8_1 Cert.ReferenceIdeal.Facts₀.bcast_S1x8_S500x8_0_1)) w3 b3 Cert.ReferenceIdeal.Facts₀.bcast_S1_S1x1_1 Cert.ReferenceIdeal.Facts₀.bcast_S1x1_S500x1_0_1) := rfl

/-- THE TAILS AGREE. -/
theorem tail_eq : tail f b w0 b0 w1 b1 w2 b2 w3 b3 = Cert.ReferenceIdeal.RefValue.tail f b w0 b0 w1 b1 w2 b2 w3 b3 := by
  rw [k_tail_chain, r_tail_chain, pool_eq]
  rw [layer_eq 500 64 32 _ Cert.ReferenceIdeal.Facts₀.dot_S500x64_S64x32_S500x32_1_0_0_1_n_n_wf _ _ _ _ _ _ _ Cert.ReferenceIdeal.Facts₀.bcast_S32_S1x32_1 Cert.ReferenceIdeal.Facts₀.bcast_S1x32_S500x32_0_1,
    relu_eq Cert.ReferenceIdeal.Facts₀.bcast_S_S500x32,
    layer_eq 500 32 16 _ Cert.ReferenceIdeal.Facts₀.dot_S500x32_S32x16_S500x16_1_0_0_1_n_n_wf _ _ _ _ _ _ _ Cert.ReferenceIdeal.Facts₀.bcast_S16_S1x16_1 Cert.ReferenceIdeal.Facts₀.bcast_S1x16_S500x16_0_1,
    relu_eq Cert.ReferenceIdeal.Facts₀.bcast_S_S500x16,
    layer_eq 500 16 8 _ Cert.ReferenceIdeal.Facts₀.dot_S500x16_S16x8_S500x8_1_0_0_1_n_n_wf _ _ _ _ _ _ _ Cert.ReferenceIdeal.Facts₀.bcast_S8_S1x8_1 Cert.ReferenceIdeal.Facts₀.bcast_S1x8_S500x8_0_1,
    relu_eq Cert.ReferenceIdeal.Facts₀.bcast_S_S500x8,
    layer_eq 500 8 1 _ Cert.ReferenceIdeal.Facts₀.dot_S500x8_S8x1_S500x1_1_0_0_1_n_n_wf _ _ _ _ _ _ _ Cert.ReferenceIdeal.Facts₀.bcast_S1_S1x1_1 Cert.ReferenceIdeal.Facts₀.bcast_S1x1_S500x1_0_1]

end SageBridge

end
-- ==== Proof.LibFiniteEntries.lean ====
/-
  A conjunction "every entry's absolute value is below +∞", read back at exact arithmetic.

  On the extended reals the absolute value of x is max(x, -x), and it is below +∞ exactly when x is neither infinity,
  that is, when x is (the image of) a real number: x = ↑(x.toReal). A precondition that takes the conjunction of
  |x_i| < +∞ over all entries of an array (a reduction by "and" of the one-bit comparisons into a single result, from the
  constant 1) and states that the result is 1 therefore says that the array is the image of its real parts.
  Stated for f32 arrays of any shape, the bound being any array that reads the word of +∞ (0x7F800000) everywhere.
-/
import Idealize.ShloMosaic.PureOps.Ideal
import Idealize.ShloMosaic.PureOps.Ideal.Laws
import Idealize.ShloMosaic.Lib.ReduceAll

noncomputable section

namespace LibFiniteEntries

open Idealize.ShloMosaic

/-- The word 0x7F800000 denotes +∞. -/
theorem ofBits_inf : Ideal.ofBits .f32 0x7F800000#32 = ⊤ := by
  simp [Ideal.ofBits, Ideal.ieee]

/-- An extended real whose absolute value max(x, -x) compares below +∞ is the image of its real part. -/
theorem real_of_abs_lt (x : EReal)
    (h : FloatOps.cmpf (F := Ideal) (φ := .f32) .olt (FloatOps.hostAbsf x) (Ideal.ofBits .f32 0x7F800000#32) = 1#1) :
    x = ((x.toReal : ℝ) : EReal) := by
  rw [Ideal.cmpf_def, Ideal.hostAbsf_def, Ideal.absf_def, ofBits_inf] at h
  induction x using EReal.rec with
  | bot => simp [Ideal.cmp] at h
  | top => simp [Ideal.cmp] at h
  | coe r => rfl

/-- The scalar shape has one index. -/
instance : Subsingleton (⟨0, ![]⟩ : Shape).Idx := ⟨fun a b => funext fun d => d.elim0⟩

/-- If the conjunction over ALL entries of "|x_i| < bound_i" is 1, the bound reading +∞ everywhere, then the array x is
    the image of its real parts. -/
theorem real_of_all_abs_lt {s t u : Shape} {axes : List (Fin s.rank)} [Subsingleton t.Idx] (x bound : FVec Ideal s .f32)
    (hb : ∀ i, bound i = Ideal.ofBits .f32 0x7F800000#32) (init : u.Idx → BitVec 1) (h : s.ReducesTo axes t) (hu : 0 < u.numel)
    (j : t.Idx) (e : Host.reduce IntOp.andi (cmpf .olt (Host.absf x) bound) init h hu j = 1#1) :
    x = fun i => (((x i).toReal : ℝ) : EReal) :=
  funext fun i => real_of_abs_lt (x i) (by
    have hi : FloatOps.cmpf (F := Ideal) (φ := .f32) .olt (FloatOps.hostAbsf (x i)) (bound i) = 1#1 :=
      Host.reduce_andi_all _ init h hu j e i
    rw [hb i] at hi
    exact hi)

end LibFiniteEntries

end
-- ==== Proof.Finite.lean ====
/-
  The precondition read back: the node features and the first weight matrix have real entries.

  The precondition is the conjunction, over the twelve float arguments, of "every entry's absolute value is below +∞";
  it holds when the conjunction is the bit 1. Peeling the conjunction gives the two conjuncts the value proof needs, and
  an entry whose absolute value is below +∞ is the image of a real number.
-/
import proofs.«129108_j33028298506662_2_alg».proof.Pre_finite_inputs
import proofs.«129108_j33028298506662_2_alg».proof.Proof.Gen.Pre_finite_inputs
import Idealize.ShloMosaic.Lib.ValueIdx
import Idealize.ShloMosaic.Lib.Pipeline.Value
import proofs.«129108_j33028298506662_2_alg».proof.Proof.LibFiniteEntries
import proofs.«129108_j33028298506662_2_alg».proof.Proof.LibRealEntries

set_option maxRecDepth 16384

noncomputable section

namespace Cert.Pre_finite_inputs.Finite

open Cert.Pre_finite_inputs Idealize.ShloMosaic Idealize.ShloMosaic.ValueIdx

/-- A splat of the word of +∞ reads that word everywhere. -/
theorem inf_splat {s : Shape} (h : (⟨0, ![]⟩ : Shape).BroadcastsInDim s ![]) (i : s.Idx) :
    (broadcastInDim s ![] h (constant (F := Ideal) ⟨0, ![]⟩ .f32 0x7F800000#32) : FVec Ideal s .f32) i
      = Ideal.ofBits .f32 0x7F800000#32 :=
  broadcastInDim_apply ![] h _ i ix0 (fun a => a.elim0)

theorem real_x_wl (a0 : FVec Ideal S50000x128 .f32) (a1 : IVec S2x600000 32) (a2 : IVec S50000 32) (a3 : FVec Ideal S128x64 .f32)
    (a4 : FVec Ideal S64 .f32) (a5 : FVec Ideal S128x64 .f32) (a6 : FVec Ideal S64x32 .f32) (a7 : FVec Ideal S32 .f32)
    (a8 : FVec Ideal S32x16 .f32) (a9 : FVec Ideal S16 .f32) (a10 : FVec Ideal S16x8 .f32) (a11 : FVec Ideal S8 .f32)
    (a12 : FVec Ideal S8x1 .f32) (a13 : FVec Ideal S1 .f32)
    (h : fn (F := Ideal) a0 a1 a2 a3 a4 a5 a6 a7 a8 a9 a10 a11 a12 a13 = fun _ => 1#1) :
    (∀ i, RealEntries.IsR (a0 i)) ∧ (∀ i, RealEntries.IsR (a3 i)) := by
  have h0 := congrFun h ix0
  dsimp only [fn, fn_part1, fn_part2, fn_part3] at h0
  have h1 := (IntOp.andi_eq_one.1 h0).1
  have h2 := (IntOp.andi_eq_one.1 h1).1
  have h3 := (IntOp.andi_eq_one.1 h2).1
  have h4 := (IntOp.andi_eq_one.1 h3).1
  have h5 := (IntOp.andi_eq_one.1 h4).1
  have h6 := (IntOp.andi_eq_one.1 h5).1
  have h7 := (IntOp.andi_eq_one.1 h6).1
  have h8 := (IntOp.andi_eq_one.1 h7).1
  have h9 := (IntOp.andi_eq_one.1 h8).1
  have h10 := (IntOp.andi_eq_one.1 h9).1
  obtain ⟨hx, hw⟩ := IntOp.andi_eq_one.1 h10
  have ex := LibFiniteEntries.real_of_all_abs_lt a0 _ (fun i => inf_splat _ i) _ _ _ _ hx
  have ew := LibFiniteEntries.real_of_all_abs_lt a3 _ (fun i => inf_splat _ i) _ _ _ _ hw
  exact ⟨fun i => ⟨_, congrFun ex i⟩, fun i => ⟨_, congrFun ew i⟩⟩

end Cert.Pre_finite_inputs.Finite

end
-- ==== Proof.lean ====
/-
  A graph convolution with mean aggregation, global mean pooling and a four-layer perceptron: the kernel against its
  reference, at exact arithmetic.

  The kernel first multiplies every node's feature row by the two weight matrices (Y = X·Wl, R = X·Wr), then gathers the
  rows of Y along the edges' source nodes and sums them over the target nodes, scales the sum at node n by
  1 / max(deg n, 1) and adds R[n] and the bias. The reference gathers and sums the rows of X themselves, divides by
  max(deg n, 1) and only then multiplies by Wl. The matrix product is linear, so the two agree once the entries of X and
  Wl are real numbers (the precondition says every float input is finite): Σ_k ((Σ_e X[s e,k]) / c)·Wl[k,j] is
  (Σ_e Σ_k X[s e,k]·Wl[k,j])·(1/c), the clamped degree c ≥ 1 acting as a real factor. From the convolved features on,
  the two programs compute the same arrays operation by operation (pooling sums, division by the clamped graph sizes
  against multiplication by their reciprocals, the dense layers), with no finiteness needed.

  The three frames: the kernel's two programs by their generated frame certificates, the reference's by its generated
  run. The idealization rewrote nothing, so it preserves the kernel trivially.
-/
import proofs.«129108_j33028298506662_2_alg».proof.Defs
import proofs.«129108_j33028298506662_2_alg».proof.Proof.Gen.Kernel
import proofs.«129108_j33028298506662_2_alg».proof.Proof.Gen.Kernel.Skeleton
import proofs.«129108_j33028298506662_2_alg».proof.Proof.Gen.Kernel.Launch
import proofs.«129108_j33028298506662_2_alg».proof.Proof.Gen.Kernel.Points
import proofs.«129108_j33028298506662_2_alg».proof.Proof.Gen.Kernel.Frame
import proofs.«129108_j33028298506662_2_alg».proof.Proof.Gen.KernelIdeal
import proofs.«129108_j33028298506662_2_alg».proof.Proof.Gen.KernelIdeal.Skeleton
import proofs.«129108_j33028298506662_2_alg».proof.Proof.Gen.KernelIdeal.Launch
import proofs.«129108_j33028298506662_2_alg».proof.Proof.Gen.KernelIdeal.Points
import proofs.«129108_j33028298506662_2_alg».proof.Proof.Gen.KernelIdeal.Frame
import proofs.«129108_j33028298506662_2_alg».proof.Proof.Gen.ReferenceIdeal
import proofs.«129108_j33028298506662_2_alg».proof.Proof.Gen.Pre_finite_inputs
import proofs.«129108_j33028298506662_2_alg».proof.Proof.Gen.ReferenceIdeal.Run
import proofs.«129108_j33028298506662_2_alg».proof.Proof.KernelValue
import proofs.«129108_j33028298506662_2_alg».proof.Proof.RefValue
import proofs.«129108_j33028298506662_2_alg».proof.Proof.BridgeX1
import proofs.«129108_j33028298506662_2_alg».proof.Proof.BridgeTail
import proofs.«129108_j33028298506662_2_alg».proof.Proof.Finite
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end at the tail of the convolved node features of the (agreeing) arguments; the convolved
    features agree because the node features and the first weight matrix are real, the tails agree outright. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_eq]
  obtain ⟨h0, h1, h2, h3, h4, h5, h6, h7, h8, h9, h10, h11, h12, h13⟩ := hagree c
  rw [h0, h1, h2, h3, h4, h5, h6, h7, h8, h9, h10, h11, h12, h13]
  obtain ⟨hx, hw⟩ := Cert.Pre_finite_inputs.Finite.real_x_wl _ _ _ _ _ _ _ _ _ _ _ _ _ _ (hpre c)
  rw [← SageBridge.x1_eq _ _ _ _ _ hx hw]
  exact (SageBridge.tail_eq _ _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
